-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8192x1 : Shape := ⟨2, ![8192, 1]⟩
abbrev S4096x2048 : Shape := ⟨2, ![4096, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x1 : S_.BroadcastsInDim S8192x1 (![] : Fin 0 → Fin S8192x1.rank)
  reducesTo_S8192x1_S_d0_1 : S8192x1.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_arg11 : FVec F S2048 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  main_v58

def fn_part2 {F : FTy → Type} [FloatOps F] (main_arg7 : FVec F S4096x2048 .f32) (main_arg8 : FVec F S2048 .f32) (main_arg9 : FVec F S2048 .f32) (main_arg10 : FVec F S2048 .f32) (main_arg11 : FVec F S2048 .f32) (main_v33 : IVec S_ 1) : IVec S_ 1 :=
  let main_v34 : FVec F S4096x2048 .f32 := Host.absf main_arg7
  let main_cst_12 : FVec F S_ .f32 := constant S_ .f32 0x7F800000#32
  let main_v35 : FVec F S4096x2048 .f32 := broadcastInDim S4096x2048 ![] bcast_S_S4096x2048 main_cst_12
  let main_v36 : IVec S4096x2048 1 := cmpf .olt main_v34 main_v35
  let main_c_13 : IVec S_ 1 := constantI S_ 1 1#1
  let main_v37 : IVec S_ 1 := (fun x v => Host.reduce IntOp.andi x v reducesTo_S4096x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_v48 main_v49 main_v50

def fn_part1 {F : FTy → Type} [FloatOps F] (main_arg4 : FVec F S4096x2048 .f32) (main_arg5 : FVec F S4096x2048 .f32) (main_arg6 : FVec F S4096x2048 .f32) (main_arg7 : FVec F S4096x2048 .f32) (main_arg8 : FVec F S2048 .f32) (main_arg9 : FVec F S2048 .f32) (main_arg10 : FVec F S2048 .f32) (main_arg11 : FVec F S2048 .f32) (main_v13 : IVec S_ 1) (main_v16 : IVec S8192x1 1) : IVec S_ 1 :=
  let main_c_5 : IVec S_ 1 := constantI S_ 1 1#1
  let main_v17 : IVec S_ 1 := (fun x v => Host.reduce IntOp.andi x v reducesTo_S8192x1_S_d0_1 h_S_) main_v16 main_c_5
  let main_v18 : IVec S_ 1 := andi main_v13 main_v17
  let main_v19 : FVec F S4096x2048 .f32 := Host.absf main_arg4
  let main_cst_6 : FVec F S_ .f32 := constant S_ .f32 0x7F800000#32
  let main_v20 : FVec F S4096x2048 .f32 := broadcastInDim S4096x2048 ![] bcast_S_S4096x2048 main_cst_6
  let main_v21 : IVec S4096x2048 1 := cmpf .olt main_v19 main_v20
  let main_c_7 : IVec S_ 1 := constantI S_ 1 1#1
  let main_v22 : IVec S_ 1 := (fun x v => Host.reduce IntOp.andi x v reducesTo_S4096x2048_S_d0_1 h_S_) main_v21 main_c_7
  let main_v23 : IVec S_ 1 := andi main_v18 main_v22
  let main_v24 : FVec F S4096x2048 .f32 := Host.absf main_arg5
  let main_cst_8 : FVec F S_ .f32 := constant S_ .f32 0x7F800000#32
  let main_v25 : FVec F S4096x2048 .f32 := broadcastInDim S4096x2048 ![] bcast_S_S4096x2048 main_cst_8
  let main_v26 : IVec S4096x2048 1 := cmpf .olt main_v24 main_v25
  let main_c_9 : IVec S_ 1 := constantI S_ 1 1#1
  let main_v27 : IVec S_ 1 := (fun x v => Host.reduce IntOp.andi x v reducesTo_S4096x2048_S_d0_1 h_S_) main_v26 main_c_9
  let main_v28 : IVec S_ 1 := andi main_v23 main_v27
  let main_v29 : FVec F S4096x2048 .f32 := Host.absf main_arg6
  let main_cst_10 : FVec F S_ .f32 := constant S_ .f32 0x7F800000#32
  let main_v30 : FVec F S4096x2048 .f32 := broadcastInDim S4096x2048 ![] bcast_S_S4096x2048 main_cst_10
  let main_v31 : IVec S4096x2048 1 := cmpf .olt main_v29 main_v30
  let main_c_11 : IVec S_ 1 := constantI S_ 1 1#1
  let main_v32 : IVec S_ 1 := (fun x v => Host.reduce IntOp.andi x v reducesTo_S4096x2048_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S8192x2048 .f32) (main_arg1 : FVec F S8192x2048 .f32) (main_arg2 : FVec F S8192x2048 .f32) (main_arg3 : FVec F S8192x1 .f32) (main_arg4 : FVec F S4096x2048 .f32) (main_arg5 : FVec F S4096x2048 .f32) (main_arg6 : FVec F S4096x2048 .f32) (main_arg7 : FVec F S4096x2048 .f32) (main_arg8 : FVec F S2048 .f32) (main_arg9 : FVec F S2048 .f32) (main_arg10 : FVec F S2048 .f32) (main_arg11 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S8192x1 .f32 := Host.absf main_arg3
  let main_cst_4 : FVec F S_ .f32 := constant S_ .f32 0x7F800000#32
  let main_v15 : FVec F S8192x1 .f32 := broadcastInDim S8192x1 ![] bcast_S_S8192x1 main_cst_4
  let main_v16 : IVec S8192x1 1 := cmpf .olt main_v14 main_v15
  fn_part1 (F := F) main_arg4 main_arg5 main_arg6 main_arg7 main_arg8 main_arg9 main_arg10 main_arg11 main_v13 main_v16
-- ==== Kernel.lean ====
abbrev S8192x2048 : Shape := ⟨2, ![8192, 2048]⟩
abbrev S8192x1 : Shape := ⟨2, ![8192, 1]⟩
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512x256 : Shape := ⟨2, ![512, 256]⟩
abbrev S4096x256 : Shape := ⟨2, ![4096, 256]⟩
abbrev S1x256 : Shape := ⟨2, ![1, 256]⟩
abbrev S2048x256 : Shape := ⟨2, ![2048, 256]⟩

abbrev nBuf : Space → Nat
  | .hbm => 24
  | .vmem => 26
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x1, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S8192x2048, .bf16⟩
  | .hbm, ⟨13, _⟩ => ⟨S8192x2048, .bf16⟩
  | .hbm, ⟨14, _⟩ => ⟨S4096x2048, .bf16⟩
  | .hbm, ⟨15, _⟩ => ⟨S4096x2048, .bf16⟩
  | .hbm, ⟨16, _⟩ => ⟨S4096x2048, .bf16⟩
  | .hbm, ⟨17, _⟩ => ⟨S4096x2048, .bf16⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S8192x2048, .f32⟩
  | .hbm, ⟨23, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x256, .f32⟩
  | .local _ .vmem, ⟨5, _⟩ => ⟨S512x256, .f32⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S4096x256, .bf16⟩
  | .local _ .vmem, ⟨11, _⟩ => ⟨S4096x256, .bf16⟩
  | .local _ .vmem, ⟨12, _⟩ => ⟨S4096x256, .bf16⟩
  | .local _ .vmem, ⟨13, _⟩ => ⟨S4096x256, .bf16⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S512x256, .f32⟩
  | .local _ .vmem, ⟨23, _⟩ => ⟨S512x256, .f32⟩
  | .local _ .vmem, ⟨24, _⟩ => ⟨S512x256, .f32⟩
  | .local _ .vmem, ⟨25, _⟩ => ⟨S512x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

class Facts₀ : Prop where
  bitsLt_bf16_f32 : FTy.bits .bf16 < FTy.bits .f32
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x256_S512x256_0_0 : ∀ a, (![0, 0] : Fin 2 → Nat) a + S512x256.size a ≤ S512x256.size a
  h_S512x256 : 0 < S512x256.numel
  inb_S4096x256_S2048x256_0_0 : ∀ a, (![0, 0] : Fin 2 → Nat) a + S2048x256.size a ≤ S4096x256.size a
  h_S2048x256 : 0 < S2048x256.numel
  shapeCasts_S2048x256_S2048x256 : S2048x256.ShapeCasts S2048x256
  inb_S4096x256_S2048x256_2048_0 : ∀ a, (![2048, 0] : Fin 2 → Nat) a + S2048x256.size a ≤ S4096x256.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  dot_S512x2048_S2048x256_S512x256_1_0_0_1_n_n_wf : DotDims.WF S512x2048 S2048x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .bf16 = 32 ∨ (Rect.block (s := S8192x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .bf16 = 32 ∨ (Rect.block (s := S8192x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S8192x2048.size a
  hwx0_2 : ∀ i : grid0.Coords, EltTy.bits .f32 = 32 ∨ (Rect.block (s := S8192x2048) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S4096x2048.size a
  hwx0_3 : ∀ i : grid0.Coords, EltTy.bits .bf16 = 32 ∨ (Rect.block (s := S4096x2048) S4096x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x256.size a ≤ S4096x2048.size a
  hwx0_4 : ∀ i : grid0.Coords, EltTy.bits .bf16 = 32 ∨ (Rect.block (s := S4096x2048) S4096x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x256.size a ≤ S4096x2048.size a
  hwx0_5 : ∀ i : grid0.Coords, EltTy.bits .bf16 = 32 ∨ (Rect.block (s := S4096x2048) S4096x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x256.size a ≤ S4096x2048.size a
  hwx0_6 : ∀ i : grid0.Coords, EltTy.bits .bf16 = 32 ∨ (Rect.block (s := S4096x2048) S4096x256.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x2048.size a
  hwx0_7 : ∀ i : grid0.Coords, EltTy.bits .f32 = 32 ∨ (Rect.block (s := S1x2048) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x2048.size a
  hwx0_8 : ∀ i : grid0.Coords, EltTy.bits .f32 = 32 ∨ (Rect.block (s := S1x2048) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x2048.size a
  hwx0_9 : ∀ i : grid0.Coords, EltTy.bits .f32 = 32 ∨ (Rect.block (s := S1x2048) S1x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x2048.size a
  hwx0_10 : ∀ i : grid0.Coords, EltTy.bits .f32 = 32 ∨ (Rect.block (s := S1x2048) S1x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x256.size a ≤ S8192x2048.size a
  hwx0_11 : ∀ i : grid0.Coords, EltTy.bits .f32 = 32 ∨ (Rect.block (s := S8192x2048) S512x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x256.size a ≤ S8192x2048.size a
  hwx0_12 : ∀ i : grid0.Coords, EltTy.bits .f32 = 32 ∨ (Rect.block (s := S8192x2048) S512x256.size (cc0_transform_12 i) (hinb0_12 i)).WholeWords (EltTy.packing .f32)

variable [Facts₀]

def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4096x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4096x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S4096x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S4096x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v8) S1x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v9) S1x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v10_0) S512x256.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v10_1) S512x256.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S8192x1 : Shape := ⟨2, ![8192, 1]⟩
abbrev S4096x2048 : Shape := ⟨2, ![4096, 2048]⟩
abbrev S2048 : Shape := ⟨1, ![2048]⟩
abbrev S8192x4096 : Shape := ⟨2, ![8192, 4096]⟩
abbrev S4096x8192 : Shape := ⟨2, ![4096, 8192]⟩
abbrev S8192 : Shape := ⟨1, ![8192]⟩
abbrev S8192x8192 : Shape := ⟨2, ![8192, 8192]⟩
abbrev S1x8192 : Shape := ⟨2, ![1, 8192]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x1, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S8192x4096, .f32⟩
  | .hbm, ⟨13, _⟩ => ⟨S4096x8192, .f32⟩
  | .hbm, ⟨14, _⟩ => ⟨S8192, .f32⟩
  | .hbm, ⟨15, _⟩ => ⟨S8192x8192, .f32⟩
  | .hbm, ⟨16, _⟩ => ⟨S1x8192, .f32⟩
  | .hbm, ⟨17, _⟩ => ⟨S8192x8192, .f32⟩
  | .hbm, ⟨18, _⟩ => ⟨S8192x8192, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S_, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]

class Facts₀ : Prop where
  concatenates_S8192x2048_S8192x2048_S8192x4096_d1 : Shape.Concatenates [S8192x2048, S8192x2048] S8192x4096 1
  concatenates_S4096x2048_S4096x2048_S4096x2048_S4096x2048_S4096x8192_d1 : Shape.Concatenates [S4096x2048, S4096x2048, S4096x2048, S4096x2048] S4096x8192 1
  concatenates_S2048_S2048_S2048_S2048_S8192_d0 : Shape.Concatenates [S2048, S2048, S2048, S2048] S8192 0
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  slices_S8192x8192_S8192x2048_0_0 : S8192x8192.Slices ![0, 0] S8192x2048
  slices_S8192x8192_S8192x2048_0_2048 : S8192x8192.Slices ![0, 2048] S8192x2048
  slices_S8192x8192_S8192x2048_0_4096 : S8192x8192.Slices ![0, 4096] S8192x2048
  slices_S8192x8192_S8192x2048_0_6144 : S8192x8192.Slices ![0, 6144] S8192x2048
  bcast_S_S8192x2048 : S_.BroadcastsInDim S8192x2048 (![] : Fin 0 → Fin S8192x2048.rank)
  dot_S8192x4096_S4096x8192_S8192x8192_1_0_0_1_n_n_wf : DotDims.WF S8192x4096 S4096x8192 S8192x8192 [1] [0] [0] [1] [] []

variable [Facts₀]

def dot_S8192x4096_S4096x8192_S8192x8192_1_0_0_1_n_n : DotDims S8192x4096 S4096x8192 S8192x8192 where
  lhsContracting := [1]
  rhsContracting := [0]
  lhsNonContracting := [0]
  rhsNonContracting := [1]
  lhsBatch := []
  rhsBatch := []
  wf := dot_S8192x4096_S4096x8192_S8192x8192_1_0_0_1_n_n_wf

class Facts : Prop extends Facts₀ where

variable [Facts]
-- ==== Proof.CellSpec.lean ====
/-
  The cell this kernel computes, as functions of the argument arrays, index by index, on the extended reals.

  One gate's pre-activation at batch row p and hidden column q is a row of the input times the top half of a column of
  the gate's weights, plus a row of the previous hidden state times the bottom half of that column, plus the bias entry:
      pre p q = (sum over k < 2048 of x[p, k] * W[k, q]) + (sum over k < 2048 of h[p, k] * W[2048 + k, q]) + b[q].
  The new cell state is c * sigma(pre_f) + sigma(pre_i) * tanh(pre_c); the new hidden state is
  sigma(pre_o) * tanh(new cell state), with sigma the logistic function 1 / (1 + e^(-z)).

  The pre-activation is stated as a function of the two rows and the two half columns it reads, so that a program reading
  those rows and columns out of a tile and a program reading them out of a joined array both instantiate one term.
-/
import Idealize.ShloMosaic.PureOps.Ideal
import Idealize.ShloMosaic.Lib.ValueIdx

noncomputable section

open scoped BigOperators

namespace Cert.Bridge.Cell

open Idealize.ShloMosaic Idealize.ShloMosaic.ValueIdx

/-- A gate's pre-activation from the input row, the hidden row, the top and bottom halves of the weight column, and
    the bias entry. -/
def pre (xr hr wt wb : Fin 2048 → EReal) (b : EReal) : EReal :=
  (∑ k : Fin 2048, xr k * wt k) + (∑ k : Fin 2048, hr k * wb k) + b

/-- The new cell state from the old one and the forget, input and candidate pre-activations. -/
def cellOf (c zf zi zc : EReal) : EReal :=
  c * Ideal.logistic zf + Ideal.logistic zi * Ideal.tanh zc

/-- The new hidden state from the output pre-activation and the new cell state. -/
def hiddenOf (zo ct : EReal) : EReal :=
  Ideal.logistic zo * Ideal.tanh ct

/-- A pre-activation depends only on the values of the rows and half columns it reads. -/
theorem pre_congr {xr hr wt wb xr' hr' wt' wb' : Fin 2048 → EReal} {b b' : EReal}
    (hx : ∀ k, xr k = xr' k) (hh : ∀ k, hr k = hr' k) (ht : ∀ k, wt k = wt' k) (hb : ∀ k, wb k = wb' k) (hbias : b = b') :
    pre xr hr wt wb b = pre xr' hr' wt' wb' b' := by
  unfold pre
  rw [hbias]
  refine congrArg₂ (· + ·) (congrArg₂ (· + ·) (Finset.sum_congr rfl fun k _ => ?_) (Finset.sum_congr rfl fun k _ => ?_)) rfl
  · rw [hx k, ht k]
  · rw [hh k, hb k]

/-- A whole batch-by-feature array of extended reals. -/
abbrev Acts : Type := (⟨2, ![8192, 2048]⟩ : Shape).Idx → EReal
/-- One gate's weights: the first 2048 rows multiply the input, the last 2048 the hidden state. -/
abbrev Weights : Type := (⟨2, ![4096, 2048]⟩ : Shape).Idx → EReal
/-- One gate's bias. -/
abbrev Bias : Type := (⟨1, ![2048]⟩ : Shape).Idx → EReal

/-- A gate's pre-activation at batch row `p` and hidden column `q`, from the whole arrays. -/
def preAt (x h : Acts) (W : Weights) (b : Bias) (p : Fin 8192) (q : Fin 2048) : EReal :=
  pre (fun k => x (ix2 p k)) (fun k => h (ix2 p k))
    (fun k => W (ix2 (⟨k.val, by have := k.isLt; omega⟩ : Fin 4096) q))
    (fun k => W (ix2 (⟨2048 + k.val, by have := k.isLt; omega⟩ : Fin 4096) q)) (b (ix1 q))

/-- The new cell state, as one array. -/
def cellAt (x h c : Acts) (Wf Wi Wc : Weights) (bf bi bc : Bias) : Acts := fun j =>
  cellOf (c j) (preAt x h Wf bf (j 0) (j 1)) (preAt x h Wi bi (j 0) (j 1)) (preAt x h Wc bc (j 0) (j 1))

/-- The new hidden state, as one array. -/
def hiddenAt (x h c : Acts) (Wf Wi Wc Wo : Weights) (bf bi bc bo : Bias) : Acts := fun j =>
  hiddenOf (preAt x h Wo bo (j 0) (j 1)) (cellAt x h c Wf Wi Wc bf bi bc j)

end Cert.Bridge.Cell

end
-- ==== Proof.LibMatmul.lean ====
/-
  A plain matrix product read at an index. For the dimension numbers of an M×K by K×N product (contract the left
  operand's second axis with the right operand's first), the contraction's sum at output index (p, q), which the
  library states over the contraction shape's own index type, is the textbook sum over k : Fin K of L[p, k] · R[k, q].
-/
import Idealize.ShloMosaic.PureOps.Ideal
import Idealize.ShloMosaic.PureOps.Ideal.Laws
import Idealize.ShloMosaic.Lib.ValueIdx

noncomputable section

open scoped BigOperators

namespace Cert.Bridge.LibMatmul

open Idealize.ShloMosaic Idealize.ShloMosaic.ValueIdx

variable {M K N : Nat}

theorem plain_rank : (DotDims.plain M K N).contr.rank = 1 := rfl
theorem plain_size : (DotDims.plain M K N).contr.size ⟨0, by rw [plain_rank]; exact Nat.one_pos⟩ = K := rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K plain_rank plain_size).symm k) = ix2 p k := by
  funext a
  refine Fin.ext ?_
  match a with
  | ⟨0, _⟩ => rfl
  | ⟨1, _⟩ =>
    refine ((DotDims.plain M K N).lhsIdx_val_of_single (cl := 1) rfl (ix2 p q) _).trans ?_
    exact contrEquiv1_symm_val (DotDims.plain M K N) K plain_rank plain_size k

/-- The right operand's index at output (p, q) and contraction coordinate k is (k, q). -/
theorem plain_rhsIdx (p : Fin M) (q : Fin N) (k : Fin K) :
    (DotDims.plain M K N).rhsIdx (ix2 p q) ((contrEquiv1 (DotDims.plain M K N) K plain_rank plain_size).symm k) = ix2 k q := by
  funext a
  refine Fin.ext ?_
  match a with
  | ⟨0, _⟩ =>
    refine ((DotDims.plain M K N).rhsIdx_val_of_single (cr := 0) rfl (ix2 p q) _).trans ?_
    exact contrEquiv1_symm_val (DotDims.plain M K N) K plain_rank plain_size k
  | ⟨1, _⟩ => rfl

/-- The contraction's sum, over the textbook index. -/
theorem plain_sum {α : Type} [AddCommMonoid α] [Mul α] (L : (⟨2, ![M, K]⟩ : Shape).Idx → α) (R : (⟨2, ![K, N]⟩ : Shape).Idx → α)
    (p : Fin M) (q : Fin N) :
    ∑ k : (DotDims.plain M K N).contr.Idx, L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K plain_rank plain_size).symm]
  refine Finset.sum_congr rfl fun k _ => ?_
  rw [plain_lhsIdx, plain_rhsIdx]

/-- A matrix unit's product into the zero accumulator, at the extended reals, read at (p, q). -/
theorem matmul_zero_apply {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) :=
  (Ideal.matmul_constant_zero_apply _ prec L R (ix2 p q)).trans (plain_sum L R p q)

/-- The host's product, at the extended reals, read at (p, q). -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q) = ∑ k : Fin K, L (ix2 p k) * R (ix2 k q) :=
  (Ideal.dotGeneral_apply _ prec sched L R (ix2 p q)).trans (plain_sum L R p q)

end Cert.Bridge.LibMatmul

end
-- ==== Proof.TileCell.lean ====
/-
  What one grid point's body computes, read at a position (r, s) of its 512 x 256 output tile. Each gate is two products of
  a 512 x 2048 row tile with a 2048 x 256 half of the gate's column tile into a zero accumulator, added, plus the bias row
  repeated down the tile; at (r, s) that is the specification's pre-activation of row r of the two row tiles, column s of
  the two halves and entry s of the bias row.
-/
import proofs.«140452_j28845000360212_2_alg».proof.Proof.Gen.KernelIdeal.Skeleton
import proofs.«140452_j28845000360212_2_alg».proof.Proof.CellSpec
import proofs.«140452_j28845000360212_2_alg».proof.Proof.LibMatmul
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Bridge.TileCell

open Idealize.ShloMosaic Idealize.ShloMosaic.ValueIdx Idealize.ShloMosaic.Pipeline
open Cert.KernelIdeal Cert.KernelIdeal.Gen Cert.Bridge

/-- A gate's pre-activation at tile position (r, s), from the two row tiles, the two halves of the gate's column tile and
    the bias row. -/
def tilePre (a h : Vec Ideal S512x2048 .bf16) (wt wb : Vec Ideal S2048x256 .bf16) (b : Vec Ideal S1x256 .f32)
    (r : Fin 512) (s : Fin 256) : EReal :=
  Cell.pre (fun k => a (ix2 r k)) (fun k => h (ix2 r k)) (fun k => wt (ix2 k s)) (fun k => wb (ix2 k s)) (b (ix2 0 s))

/-- The generated record of dimension numbers is the plain M x K by K x N one. -/
private theorem dot_plain : dot_S512x2048_S2048x256_S512x256_1_0_0_1_n_n = DotDims.plain 512 2048 256 := rfl

/-- The logistic function of a tile, read at a position. -/
private theorem logistic_at {s : Shape} {φ : FTy} (a : FVec Ideal s φ) (i : s.Idx) :
    Idealize.ShloMosaic.logistic a i = Ideal.logistic (a i) := rfl

/-- The hyperbolic tangent of a tile, read at a position. -/
private theorem tanh_at {s : Shape} {φ : FTy} (a : FVec Ideal s φ) (i : s.Idx) :
    Idealize.ShloMosaic.tanh a i = Ideal.tanh (a i) := rfl

/-- One gate before its activation: two products into the zero accumulator, added, plus the bias row repeated down
    the tile, read at (r, s), is the specification's pre-activation of the rows and half columns it reads. -/
private theorem gate_at (a h : FVec Ideal S512x2048 .bf16) (wt wb : FVec Ideal S2048x256 .bf16) (b : FVec Ideal S1x256 .f32)
    (r : Fin 512) (s : Fin 256) :
    addf (addf (matmul dot_S512x2048_S2048x256_S512x256_1_0_0_1_n_n none a wt (constant S512x256 .f32 0x00000000#32))
               (matmul dot_S512x2048_S2048x256_S512x256_1_0_0_1_n_n none h wb (constant S512x256 .f32 0x00000000#32)))
         (broadcastTo S512x256 b broadcasts_S1x256_S512x256) (ix2 r s)
      = tilePre a h wt wb b r s := by
  have e1 := LibMatmul.matmul_zero_apply (M := 512) (K := 2048) (N := 256) none a wt r s
  have e2 := LibMatmul.matmul_zero_apply (M := 512) (K := 2048) (N := 256) none h wb r s
  have e3 := broadcastTo_1b_ab_apply b broadcasts_S1x256_S512x256 r s
  rw [addf_apply, addf_apply, dot_plain]
  refine (congrArg₂ (· + ·) (congrArg₂ (· + ·) e1 e2) e3).trans ?_
  rfl

/-- Re-laying a tile into its own shape changes nothing. -/
theorem pay3_eq (v0 : Vec Ideal S512x2048 .bf16) : k0_pay3 (F := Ideal) v0 = v0 := by
  unfold k0_pay3
  exact shapeCast_self _ _
theorem pay4_eq (v2 : Vec Ideal S512x2048 .bf16) : k0_pay4 (F := Ideal) v2 = v2 := by
  unfold k0_pay4
  exact shapeCast_self _ _
theorem pay7_eq (v29 : Vec Ideal S2048x256 .bf16) : k0_pay7 (F := Ideal) v29 = v29 := by
  unfold k0_pay7
  exact shapeCast_self _ _

/-- The forget gate at (r, s): the logistic function of its pre-activation. -/
theorem pay5_at (v0 v2 : Vec Ideal S512x2048 .bf16) (v5 v7 : Vec Ideal S2048x256 .bf16) (v12 : Vec Ideal S1x256 .f32)
    (r : Fin 512) (s : Fin 256) :
    k0_pay5 (F := Ideal) v0 v2 v5 v7 v12 (ix2 r s) = Ideal.logistic (tilePre v0 v2 v5 v7 v12 r s) := by
  unfold k0_pay5
  simp only [pay3_eq, pay4_eq, shapeCast_self, logistic_at]
  exact congrArg Ideal.logistic (gate_at v0 v2 v5 v7 v12 r s)

/-- The input gate at (r, s): the logistic function of its pre-activation. -/
theorem pay6_at (v0 v2 : Vec Ideal S512x2048 .bf16) (v17 v19 : Vec Ideal S2048x256 .bf16) (v24 : Vec Ideal S1x256 .f32)
    (r : Fin 512) (s : Fin 256) :
    k0_pay6 (F := Ideal) v0 v2 v17 v19 v24 (ix2 r s) = Ideal.logistic (tilePre v0 v2 v17 v19 v24 r s) := by
  unfold k0_pay6
  simp only [pay3_eq, pay4_eq, shapeCast_self, logistic_at]
  exact congrArg Ideal.logistic (gate_at v0 v2 v17 v19 v24 r s)

/-- The new cell state at (r, s), from the old one, the two gates already formed and the candidate's operands. -/
theorem pay1_at (v1 v3 : FVec Ideal S512x2048 .bf16) (v4 : Vec Ideal S512x256 .f32) (v16 v28 : FVec Ideal S512x256 .f32)
    (v30 : FVec Ideal S2048x256 .bf16) (v31 : Vec Ideal S2048x256 .bf16) (v36 : Vec Ideal S1x256 .f32)
    (r : Fin 512) (s : Fin 256) :
    k0_pay1 (F := Ideal) v1 v3 v4 v16 v28 v30 v31 v36 (ix2 r s)
      = v4 (ix2 r s) * v16 (ix2 r s) + v28 (ix2 r s) * Ideal.tanh (tilePre v1 v3 v30 v31 v36 r s) := by
  unfold k0_pay1
  simp only [shapeCast_self]
  rw [addf_apply, mulf_apply, mulf_apply, tanh_at]
  exact congrArg (fun z => v4 (ix2 r s) * v16 (ix2 r s) + v28 (ix2 r s) * Ideal.tanh z) (gate_at v1 v3 v30 v31 v36 r s)

/-- The new hidden state at (r, s): the output gate times the hyperbolic tangent of the new cell state. -/
theorem pay2_at (v1 v3 : FVec Ideal S512x2048 .bf16) (v4 : Vec Ideal S512x256 .f32) (v16 v28 : FVec Ideal S512x256 .f32)
    (v30 : FVec Ideal S2048x256 .bf16) (v31 : Vec Ideal S2048x256 .bf16) (v36 : Vec Ideal S1x256 .f32)
    (v44 v46 : Vec Ideal S2048x256 .bf16) (v51 : Vec Ideal S1x256 .f32) (r : Fin 512) (s : Fin 256) :
    k0_pay2 (F := Ideal) v1 v3 v4 v16 v28 v30 v31 v36 v44 v46 v51 (ix2 r s)
      = Ideal.logistic (tilePre v1 v3 v44 v46 v51 r s)
        * Ideal.tanh (k0_pay1 (F := Ideal) v1 v3 v4 v16 v28 v30 v31 v36 (ix2 r s)) := by
  unfold k0_pay2
  simp only [shapeCast_self]
  rw [mulf_apply, logistic_at, tanh_at]
  exact congrArg (fun z => Ideal.logistic z * Ideal.tanh (k0_pay1 (F := Ideal) v1 v3 v4 v16 v28 v30 v31 v36 (ix2 r s)))
    (gate_at v1 v3 v44 v46 v51 r s)

end Cert.Bridge.TileCell

end
-- ==== Proof.KernelCell.lean ====
/-
  From tiles to whole arrays. Grid point (j, i) of the 8 x 16 grid writes the 512 x 256 tile of rows i * 512 .. and
  columns j * 256 .. of each result; it reads the same rows of the input and of the previous hidden state (all 2048
  columns), the same tile of the previous cell state, columns j * 256 .. of each gate's weights (all 4096 rows, the top
  2048 for the input and the bottom 2048 for the hidden state) and entries j * 256 .. of each gate's bias. So what the
  point writes back is the tile of the specification's arrays, and the 128 tiles cover both results.
-/
import proofs.«140452_j28845000360212_2_alg».proof.Proof.Gen.KernelIdeal.Value
import proofs.«140452_j28845000360212_2_alg».proof.Proof.CellSpec
import proofs.«140452_j28845000360212_2_alg».proof.Proof.TileCell
import Idealize.ShloMosaic.Lib.Pipeline.Value
import Idealize.ShloMosaic.Lib.ValueIdx
import Idealize.ShloMosaic.Lib.ValueLayout
import Idealize.ShloMosaic.Lib.StableHlo.Run

noncomputable section

open scoped BigOperators

namespace Cert.Bridge.KernelCell

open Idealize.ShloMosaic Idealize.ShloMosaic.ValueIdx Idealize.ShloMosaic.Pipeline Idealize.ShloMosaic.TcCoe Idealize.SL.Sem
open Idealize.ShloMosaic.StableHlo
open Cert.KernelIdeal Cert.KernelIdeal.Gen Cert.Bridge Cert.Bridge.TileCell
open Idealize.ShloMosaic.Pipeline (Dat)

/-! ## One tile -/

theorem hz : (![0, 0] : Fin 2 → Nat) = fun _ => 0 := funext fun a => by fin_cases a <;> rfl

/-- The top half of a gate's column tile, loaded through its rectangle, read at (k, s). -/
theorem ld_top (w : Vec Ideal S4096x256 .bf16) (k : Fin 2048) (s : Fin 256) :
    View.ld w r0_2 (ix2 k s) = w (ix2 (⟨k.val, by have := k.isLt; omega⟩ : Fin 4096) s) := by
  show w (r0_2.idx (ix2 k s)) = _
  refine congrArg w (funext fun a => Fin.ext ?_)
  match a with
  | ⟨0, _⟩ => show 0 + 1 * k.val = k.val; omega
  | ⟨1, _⟩ => show 0 + 1 * s.val = s.val; omega

/-- The bottom half: row 2048 + k of the column tile. -/
theorem ld_bot (w : Vec Ideal S4096x256 .bf16) (k : Fin 2048) (s : Fin 256) :
    View.ld w r0_3 (ix2 k s) = w (ix2 (⟨2048 + k.val, by have := k.isLt; omega⟩ : Fin 4096) s) := by
  show w (r0_3.idx (ix2 k s)) = _
  refine congrArg w (funext fun a => Fin.ext ?_)
  match a with
  | ⟨0, _⟩ => show 2048 + 1 * k.val = 2048 + k.val; omega
  | ⟨1, _⟩ => show 0 + 1 * s.val = s.val; omega

/-- A gate's pre-activation at tile position (r, s), from the two row tiles, the gate's whole column tile and its bias
    row. -/
def tileGate (x0 x1 : Vec Ideal S512x2048 .bf16) (w : Vec Ideal S4096x256 .bf16) (b : Vec Ideal S1x256 .f32)
    (r : Fin 512) (s : Fin 256) : EReal :=
  Cell.pre (fun k => x0 (ix2 r k)) (fun k => x1 (ix2 r k))
    (fun k => w (ix2 (⟨k.val, by have := k.isLt; omega⟩ : Fin 4096) s))
    (fun k => w (ix2 (⟨2048 + k.val, by have := k.isLt; omega⟩ : Fin 4096) s)) (b (ix2 0 s))

theorem tilePre_ld (x0 x1 : Vec Ideal S512x2048 .bf16) (w : Vec Ideal S4096x256 .bf16) (b : Vec Ideal S1x256 .f32)
    (r : Fin 512) (s : Fin 256) :
    tilePre x0 x1 (View.ld w r0_2) (View.ld w r0_3) b r s = tileGate x0 x1 w b r s :=
  Cell.pre_congr (fun _ => rfl) (fun _ => rfl) (fun k => ld_top w k s) (fun k => ld_bot w k s) rfl

/-- What the body leaves in the cell-state tile, at (r, s). -/
theorem tile_cell (x0 x1 : Vec Ideal S512x2048 .bf16) (x2 : Vec Ideal S512x256 .f32)
    (x3 x4 x5 x6 : Vec Ideal S4096x256 .bf16) (x7 x8 x9 x10 : Vec Ideal S1x256 .f32) (r : Fin 512) (s : Fin 256) :
    out0_12 (F := Ideal) x0 x1 x2 x3 x4 x5 x6 x7 x8 x9 x10 (ix2 r s)
      = Cell.cellOf (x2 (ix2 r s)) (tileGate x0 x1 x3 x7 r s) (tileGate x0 x1 x4 x8 r s) (tileGate x0 x1 x5 x9 r s) := by
  unfold out0_12
  rw [View.canon_unit_zero hz]
  simp only [View.ld_unit_zero (S := S512x2048) hz, View.ld_unit_zero (S := S512x256) hz, View.ld_unit_zero (S := S1x256) hz]
  rw [pay3_eq, pay4_eq, pay7_eq, pay1_at, pay5_at, pay6_at, tilePre_ld, tilePre_ld, tilePre_ld]
  rfl

/-- What the body leaves in the hidden-state tile, at (r, s). -/
theorem tile_hidden (x0 x1 : Vec Ideal S512x2048 .bf16) (x2 : Vec Ideal S512x256 .f32)
    (x3 x4 x5 x6 : Vec Ideal S4096x256 .bf16) (x7 x8 x9 x10 : Vec Ideal S1x256 .f32) (r : Fin 512) (s : Fin 256) :
    out0_11 (F := Ideal) x0 x1 x2 x3 x4 x5 x6 x7 x8 x9 x10 (ix2 r s)
      = Cell.hiddenOf (tileGate x0 x1 x6 x10 r s)
          (Cell.cellOf (x2 (ix2 r s)) (tileGate x0 x1 x3 x7 r s) (tileGate x0 x1 x4 x8 r s) (tileGate x0 x1 x5 x9 r s)) := by
  unfold out0_11
  rw [View.canon_unit_zero hz]
  simp only [View.ld_unit_zero (S := S512x2048) hz, View.ld_unit_zero (S := S512x256) hz, View.ld_unit_zero (S := S1x256) hz]
  rw [pay3_eq, pay4_eq, pay7_eq, pay2_at, pay1_at, pay5_at, pay6_at, tilePre_ld, tilePre_ld, tilePre_ld, tilePre_ld]
  rfl

/-! ## The arrays as the region finds them -/

variable (m : (ℓ : Loc nD τ sig) → Buf (Elt Ideal) ℓ) (ρ : Dev nD → PrngReg)

/-- A change of float format is the identity on the extended reals: the region finds the input itself. -/
theorem V_v0 (c : Dev nD) : (V m c main_v0 : S8192x2048.Idx → EReal) = m ((c : Thread nD τ).loc main_arg0) := by
  dsimp only [Gen.V, Gen.hostOps0]; after_results; rfl
theorem V_v1 (c : Dev nD) : (V m c main_v1 : S8192x2048.Idx → EReal) = m ((c : Thread nD τ).loc main_arg1) := by
  dsimp only [Gen.V, Gen.hostOps0]; after_results; rfl
theorem V_v2 (c : Dev nD) : (V m c main_v2 : S4096x2048.Idx → EReal) = m ((c : Thread nD τ).loc main_arg4) := by
  dsimp only [Gen.V, Gen.hostOps0]; after_results; rfl
theorem V_v3 (c : Dev nD) : (V m c main_v3 : S4096x2048.Idx → EReal) = m ((c : Thread nD τ).loc main_arg5) := by
  dsimp only [Gen.V, Gen.hostOps0]; after_results; rfl
theorem V_v4 (c : Dev nD) : (V m c main_v4 : S4096x2048.Idx → EReal) = m ((c : Thread nD τ).loc main_arg6) := by
  dsimp only [Gen.V, Gen.hostOps0]; after_results; rfl
theorem V_v5 (c : Dev nD) : (V m c main_v5 : S4096x2048.Idx → EReal) = m ((c : Thread nD τ).loc main_arg7) := by
  dsimp only [Gen.V, Gen.hostOps0]; after_results; rfl

/-- A bias as the one-row matrix the region finds, at (0, q), is the bias at q. -/
theorem V_v6 (c : Dev nD) (q : Fin 2048) :
    (V m c main_v6 : S1x2048.Idx → EReal) (ix2 0 q) = m ((c : Thread nD τ).loc main_arg8) (ix1 q) := by
  have e : (V m c main_v6 : S1x2048.Idx → EReal)
      = shapeCast S1x2048 (m ((c : Thread nD τ).loc main_arg8)) shapeCasts_S2048_S1x2048 := by
    dsimp only [Gen.V, Gen.hostOps0]; after_results; rfl
  rw [e]
  exact shapeCast_apply _ _ (ix2 0 q) (ix1 q) (by
    rw [Shape.rowMajor_val_one, Shape.rowMajor_val_two]; show q.val = 0 * 2048 + q.val; omega)
theorem V_v7 (c : Dev nD) (q : Fin 2048) :
    (V m c main_v7 : S1x2048.Idx → EReal) (ix2 0 q) = m ((c : Thread nD τ).loc main_arg9) (ix1 q) := by
  have e : (V m c main_v7 : S1x2048.Idx → EReal)
      = shapeCast S1x2048 (m ((c : Thread nD τ).loc main_arg9)) shapeCasts_S2048_S1x2048 := by
    dsimp only [Gen.V, Gen.hostOps0]; after_results; rfl
  rw [e]
  exact shapeCast_apply _ _ (ix2 0 q) (ix1 q) (by
    rw [Shape.rowMajor_val_one, Shape.rowMajor_val_two]; show q.val = 0 * 2048 + q.val; omega)
theorem V_v8 (c : Dev nD) (q : Fin 2048) :
    (V m c main_v8 : S1x2048.Idx → EReal) (ix2 0 q) = m ((c : Thread nD τ).loc main_arg10) (ix1 q) := by
  have e : (V m c main_v8 : S1x2048.Idx → EReal)
      = shapeCast S1x2048 (m ((c : Thread nD τ).loc main_arg10)) shapeCasts_S2048_S1x2048 := by
    dsimp only [Gen.V, Gen.hostOps0]; after_results; rfl
  rw [e]
  exact shapeCast_apply _ _ (ix2 0 q) (ix1 q) (by
    rw [Shape.rowMajor_val_one, Shape.rowMajor_val_two]; show q.val = 0 * 2048 + q.val; omega)
theorem V_v9 (c : Dev nD) (q : Fin 2048) :
    (V m c main_v9 : S1x2048.Idx → EReal) (ix2 0 q) = m ((c : Thread nD τ).loc main_arg11) (ix1 q) := by
  have e : (V m c main_v9 : S1x2048.Idx → EReal)
      = shapeCast S1x2048 (m ((c : Thread nD τ).loc main_arg11)) shapeCasts_S2048_S1x2048 := by
    dsimp only [Gen.V, Gen.hostOps0]; after_results; rfl
  rw [e]
  exact shapeCast_apply _ _ (ix2 0 q) (ix1 q) (by
    rw [Shape.rowMajor_val_one, Shape.rowMajor_val_two]; show q.val = 0 * 2048 + q.val; omega)

/-! ## Which tile each window stages at a point -/

/-- The printed index maps, decided over the 128 grid points: the two row windows follow the result's row tile and take
    all columns; the cell-state window follows the result's tile; the weight and bias windows follow the result's
    column tile and take all rows; the two result windows move together. -/
theorem idx_facts : ∀ t : Fin cfg0.N, win0_0.index t (0 : Fin 2) = win0_12.index t (0 : Fin 2)
    ∧ win0_0.index t (1 : Fin 2) = 0
    ∧ win0_1.index t (0 : Fin 2) = win0_12.index t (0 : Fin 2)
    ∧ win0_1.index t (1 : Fin 2) = 0
    ∧ win0_2.index t (0 : Fin 2) = win0_12.index t (0 : Fin 2)
    ∧ win0_2.index t (1 : Fin 2) = win0_12.index t (1 : Fin 2)
    ∧ win0_3.index t (0 : Fin 2) = 0
    ∧ win0_3.index t (1 : Fin 2) = win0_12.index t (1 : Fin 2)
    ∧ win0_4.index t (0 : Fin 2) = 0
    ∧ win0_4.index t (1 : Fin 2) = win0_12.index t (1 : Fin 2)
    ∧ win0_5.index t (0 : Fin 2) = 0
    ∧ win0_5.index t (1 : Fin 2) = win0_12.index t (1 : Fin 2)
    ∧ win0_6.index t (0 : Fin 2) = 0
    ∧ win0_6.index t (1 : Fin 2) = win0_12.index t (1 : Fin 2)
    ∧ win0_7.index t (0 : Fin 2) = 0
    ∧ win0_7.index t (1 : Fin 2) = win0_12.index t (1 : Fin 2)
    ∧ win0_8.index t (0 : Fin 2) = 0
    ∧ win0_8.index t (1 : Fin 2) = win0_12.index t (1 : Fin 2)
    ∧ win0_9.index t (0 : Fin 2) = 0
    ∧ win0_9.index t (1 : Fin 2) = win0_12.index t (1 : Fin 2)
    ∧ win0_10.index t (0 : Fin 2) = 0
    ∧ win0_10.index t (1 : Fin 2) = win0_12.index t (1 : Fin 2)
    ∧ win0_11.index t (0 : Fin 2) = win0_12.index t (0 : Fin 2)
    ∧ win0_11.index t (1 : Fin 2) = win0_12.index t (1 : Fin 2)
    ∧ win0_12.index t (0 : Fin 2) ≤ 15
    ∧ win0_12.index t (1 : Fin 2) ≤ 7 :=
  (by decide +kernel : ∀ t : Fin grid0.N, _)

/-- Every tile of the 16 x 8 tiling is some point's. -/
theorem idx_onto : ∀ (q0 : Fin 16) (q1 : Fin 8), ∃ t : Fin cfg0.N, win0_12.index t = ![q0.val, q1.val] :=
  (by decide +kernel : ∀ (q0 : Fin 16) (q1 : Fin 8), ∃ t : Fin grid0.N, win0_12.index t = ![q0.val, q1.val])

/-- Row r of the input's row tile at point t is row p of the input, p the tile's first row plus r. -/
theorem row_x (c : Dev nD) (t : Fin cfg0.N) (r : Fin 512) (k : Fin 2048) (p : Fin 8192)
    (hp : p.val = win0_12.index t (0 : Fin 2) * 512 + r.val) :
    iblk m c 0 t (ix2 r k) = (m ((c : Thread nD τ).loc main_arg0)) (ix2 p k) := by
  obtain ⟨e0, e1, e2, e3, e4, e5, e6, e7, e8, e9, e10, e11, e12, e13, e14, e15, e16, e17, e18, e19, e20, e21, e22, e23, e24, e25⟩ := idx_facts t
  show V m c main_v0 (((cfg0.win 0).blk t).view.emb (ix2 r k)) = _
  rw [V_v0]
  refine congrArg _ (funext fun a => Fin.ext ?_)
  match a with
  | ⟨0, _⟩ => show win0_0.index t (0 : Fin 2) * 512 + 1 * r.val = p.val; omega
  | ⟨1, _⟩ => show win0_0.index t (1 : Fin 2) * 2048 + 1 * k.val = k.val; omega

/-- The same for the previous hidden state. -/
theorem row_h (c : Dev nD) (t : Fin cfg0.N) (r : Fin 512) (k : Fin 2048) (p : Fin 8192)
    (hp : p.val = win0_12.index t (0 : Fin 2) * 512 + r.val) :
    iblk m c 1 t (ix2 r k) = (m ((c : Thread nD τ).loc main_arg1)) (ix2 p k) := by
  obtain ⟨e0, e1, e2, e3, e4, e5, e6, e7, e8, e9, e10, e11, e12, e13, e14, e15, e16, e17, e18, e19, e20, e21, e22, e23, e24, e25⟩ := idx_facts t
  show V m c main_v1 (((cfg0.win 1).blk t).view.emb (ix2 r k)) = _
  rw [V_v1]
  refine congrArg _ (funext fun a => Fin.ext ?_)
  match a with
  | ⟨0, _⟩ => show win0_1.index t (0 : Fin 2) * 512 + 1 * r.val = p.val; omega
  | ⟨1, _⟩ => show win0_1.index t (1 : Fin 2) * 2048 + 1 * k.val = k.val; omega

/-- The previous cell state's tile at (r, s) is the array at (p, q). -/
theorem tile_c (c : Dev nD) (t : Fin cfg0.N) (r : Fin 512) (s : Fin 256) (p : Fin 8192) (q : Fin 2048)
    (hp : p.val = win0_12.index t (0 : Fin 2) * 512 + r.val) (hq : q.val = win0_12.index t (1 : Fin 2) * 256 + s.val) :
    iblk m c 2 t (ix2 r s) = (m ((c : Thread nD τ).loc main_arg2)) (ix2 p q) := by
  obtain ⟨e0, e1, e2, e3, e4, e5, e6, e7, e8, e9, e10, e11, e12, e13, e14, e15, e16, e17, e18, e19, e20, e21, e22, e23, e24, e25⟩ := idx_facts t
  show V m c main_arg2 (((cfg0.win 2).blk t).view.emb (ix2 r s)) = _
  rw [V_main_arg2]
  refine congrArg _ (funext fun a => Fin.ext ?_)
  match a with
  | ⟨0, _⟩ => show win0_2.index t (0 : Fin 2) * 512 + 1 * r.val = p.val; omega
  | ⟨1, _⟩ => show win0_2.index t (1 : Fin 2) * 256 + 1 * s.val = q.val; omega

/-- Column s of the forget gate's column tile at point t is column q of its weights, all 4096 rows. -/
theorem col_w0 (c : Dev nD) (t : Fin cfg0.N) (k : Fin 4096) (s : Fin 256) (q : Fin 2048)
    (hq : q.val = win0_12.index t (1 : Fin 2) * 256 + s.val) :
    iblk m c 3 t (ix2 k s) = (m ((c : Thread nD τ).loc main_arg4)) (ix2 k q) := by
  obtain ⟨e0, e1, e2, e3, e4, e5, e6, e7, e8, e9, e10, e11, e12, e13, e14, e15, e16, e17, e18, e19, e20, e21, e22, e23, e24, e25⟩ := idx_facts t
  show V m c main_v2 (((cfg0.win 3).blk t).view.emb (ix2 k s)) = _
  rw [V_v2]
  refine congrArg _ (funext fun a => Fin.ext ?_)
  match a with
  | ⟨0, _⟩ => show win0_3.index t (0 : Fin 2) * 4096 + 1 * k.val = k.val; omega
  | ⟨1, _⟩ => show win0_3.index t (1 : Fin 2) * 256 + 1 * s.val = q.val; omega

/-- Entry s of the forget gate's bias row at point t is entry q of its bias. -/
theorem ent_b0 (c : Dev nD) (t : Fin cfg0.N) (s : Fin 256) (q : Fin 2048)
    (hq : q.val = win0_12.index t (1 : Fin 2) * 256 + s.val) :
    iblk m c 7 t (ix2 0 s) = (m ((c : Thread nD τ).loc main_arg8)) (ix1 q) := by
  obtain ⟨e0, e1, e2, e3, e4, e5, e6, e7, e8, e9, e10, e11, e12, e13, e14, e15, e16, e17, e18, e19, e20, e21, e22, e23, e24, e25⟩ := idx_facts t
  show V m c main_v6 (((cfg0.win 7).blk t).view.emb (ix2 0 s)) = _
  refine Eq.trans (congrArg _ (funext fun a => Fin.ext ?_)) (V_v6 m c q)
  match a with
  | ⟨0, _⟩ => show win0_7.index t (0 : Fin 2) * 1 + 1 * 0 = 0; omega
  | ⟨1, _⟩ => show win0_7.index t (1 : Fin 2) * 256 + 1 * s.val = q.val; omega

/-- So the forget gate's pre-activation read from the tiles at (r, s) is the specification's at (p, q). -/
theorem gate0 (c : Dev nD) (t : Fin cfg0.N) (r : Fin 512) (s : Fin 256) (p : Fin 8192) (q : Fin 2048)
    (hp : p.val = win0_12.index t (0 : Fin 2) * 512 + r.val) (hq : q.val = win0_12.index t (1 : Fin 2) * 256 + s.val) :
    tileGate (iblk m c 0 t) (iblk m c 1 t) (iblk m c 3 t) (iblk m c 7 t) r s
      = Cell.preAt (m ((c : Thread nD τ).loc main_arg0)) (m ((c : Thread nD τ).loc main_arg1)) (m ((c : Thread nD τ).loc main_arg4)) (m ((c : Thread nD τ).loc main_arg8)) p q :=
  Cell.pre_congr (fun k => row_x m c t r k p hp) (fun k => row_h m c t r k p hp)
    (fun k => col_w0 m c t _ s q hq) (fun k => col_w0 m c t _ s q hq) (ent_b0 m c t s q hq)

/-- Column s of the input gate's column tile at point t is column q of its weights, all 4096 rows. -/
theorem col_w1 (c : Dev nD) (t : Fin cfg0.N) (k : Fin 4096) (s : Fin 256) (q : Fin 2048)
    (hq : q.val = win0_12.index t (1 : Fin 2) * 256 + s.val) :
    iblk m c 4 t (ix2 k s) = (m ((c : Thread nD τ).loc main_arg5)) (ix2 k q) := by
  obtain ⟨e0, e1, e2, e3, e4, e5, e6, e7, e8, e9, e10, e11, e12, e13, e14, e15, e16, e17, e18, e19, e20, e21, e22, e23, e24, e25⟩ := idx_facts t
  show V m c main_v3 (((cfg0.win 4).blk t).view.emb (ix2 k s)) = _
  rw [V_v3]
  refine congrArg _ (funext fun a => Fin.ext ?_)
  match a with
  | ⟨0, _⟩ => show win0_4.index t (0 : Fin 2) * 4096 + 1 * k.val = k.val; omega
  | ⟨1, _⟩ => show win0_4.index t (1 : Fin 2) * 256 + 1 * s.val = q.val; omega

/-- Entry s of the input gate's bias row at point t is entry q of its bias. -/
theorem ent_b1 (c : Dev nD) (t : Fin cfg0.N) (s : Fin 256) (q : Fin 2048)
    (hq : q.val = win0_12.index t (1 : Fin 2) * 256 + s.val) :
    iblk m c 8 t (ix2 0 s) = (m ((c : Thread nD τ).loc main_arg9)) (ix1 q) := by
  obtain ⟨e0, e1, e2, e3, e4, e5, e6, e7, e8, e9, e10, e11, e12, e13, e14, e15, e16, e17, e18, e19, e20, e21, e22, e23, e24, e25⟩ := idx_facts t
  show V m c main_v7 (((cfg0.win 8).blk t).view.emb (ix2 0 s)) = _
  refine Eq.trans (congrArg _ (funext fun a => Fin.ext ?_)) (V_v7 m c q)
  match a with
  | ⟨0, _⟩ => show win0_8.index t (0 : Fin 2) * 1 + 1 * 0 = 0; omega
  | ⟨1, _⟩ => show win0_8.index t (1 : Fin 2) * 256 + 1 * s.val = q.val; omega

/-- So the input gate's pre-activation read from the tiles at (r, s) is the specification's at (p, q). -/
theorem gate1 (c : Dev nD) (t : Fin cfg0.N) (r : Fin 512) (s : Fin 256) (p : Fin 8192) (q : Fin 2048)
    (hp : p.val = win0_12.index t (0 : Fin 2) * 512 + r.val) (hq : q.val = win0_12.index t (1 : Fin 2) * 256 + s.val) :
    tileGate (iblk m c 0 t) (iblk m c 1 t) (iblk m c 4 t) (iblk m c 8 t) r s
      = Cell.preAt (m ((c : Thread nD τ).loc main_arg0)) (m ((c : Thread nD τ).loc main_arg1)) (m ((c : Thread nD τ).loc main_arg5)) (m ((c : Thread nD τ).loc main_arg9)) p q :=
  Cell.pre_congr (fun k => row_x m c t r k p hp) (fun k => row_h m c t r k p hp)
    (fun k => col_w1 m c t _ s q hq) (fun k => col_w1 m c t _ s q hq) (ent_b1 m c t s q hq)

/-- Column s of the candidate gate's column tile at point t is column q of its weights, all 4096 rows. -/
theorem col_w2 (c : Dev nD) (t : Fin cfg0.N) (k : Fin 4096) (s : Fin 256) (q : Fin 2048)
    (hq : q.val = win0_12.index t (1 : Fin 2) * 256 + s.val) :
    iblk m c 5 t (ix2 k s) = (m ((c : Thread nD τ).loc main_arg6)) (ix2 k q) := by
  obtain ⟨e0, e1, e2, e3, e4, e5, e6, e7, e8, e9, e10, e11, e12, e13, e14, e15, e16, e17, e18, e19, e20, e21, e22, e23, e24, e25⟩ := idx_facts t
  show V m c main_v4 (((cfg0.win 5).blk t).view.emb (ix2 k s)) = _
  rw [V_v4]
  refine congrArg _ (funext fun a => Fin.ext ?_)
  match a with
  | ⟨0, _⟩ => show win0_5.index t (0 : Fin 2) * 4096 + 1 * k.val = k.val; omega
  | ⟨1, _⟩ => show win0_5.index t (1 : Fin 2) * 256 + 1 * s.val = q.val; omega

/-- Entry s of the candidate gate's bias row at point t is entry q of its bias. -/
theorem ent_b2 (c : Dev nD) (t : Fin cfg0.N) (s : Fin 256) (q : Fin 2048)
    (hq : q.val = win0_12.index t (1 : Fin 2) * 256 + s.val) :
    iblk m c 9 t (ix2 0 s) = (m ((c : Thread nD τ).loc main_arg10)) (ix1 q) := by
  obtain ⟨e0, e1, e2, e3, e4, e5, e6, e7, e8, e9, e10, e11, e12, e13, e14, e15, e16, e17, e18, e19, e20, e21, e22, e23, e24, e25⟩ := idx_facts t
  show V m c main_v8 (((cfg0.win 9).blk t).view.emb (ix2 0 s)) = _
  refine Eq.trans (congrArg _ (funext fun a => Fin.ext ?_)) (V_v8 m c q)
  match a with
  | ⟨0, _⟩ => show win0_9.index t (0 : Fin 2) * 1 + 1 * 0 = 0; omega
  | ⟨1, _⟩ => show win0_9.index t (1 : Fin 2) * 256 + 1 * s.val = q.val; omega

/-- So the candidate gate's pre-activation read from the tiles at (r, s) is the specification's at (p, q). -/
theorem gate2 (c : Dev nD) (t : Fin cfg0.N) (r : Fin 512) (s : Fin 256) (p : Fin 8192) (q : Fin 2048)
    (hp : p.val = win0_12.index t (0 : Fin 2) * 512 + r.val) (hq : q.val = win0_12.index t (1 : Fin 2) * 256 + s.val) :
    tileGate (iblk m c 0 t) (iblk m c 1 t) (iblk m c 5 t) (iblk m c 9 t) r s
      = Cell.preAt (m ((c : Thread nD τ).loc main_arg0)) (m ((c : Thread nD τ).loc main_arg1)) (m ((c : Thread nD τ).loc main_arg6)) (m ((c : Thread nD τ).loc main_arg10)) p q :=
  Cell.pre_congr (fun k => row_x m c t r k p hp) (fun k => row_h m c t r k p hp)
    (fun k => col_w2 m c t _ s q hq) (fun k => col_w2 m c t _ s q hq) (ent_b2 m c t s q hq)

/-- Column s of the output gate's column tile at point t is column q of its weights, all 4096 rows. -/
theorem col_w3 (c : Dev nD) (t : Fin cfg0.N) (k : Fin 4096) (s : Fin 256) (q : Fin 2048)
    (hq : q.val = win0_12.index t (1 : Fin 2) * 256 + s.val) :
    iblk m c 6 t (ix2 k s) = (m ((c : Thread nD τ).loc main_arg7)) (ix2 k q) := by
  obtain ⟨e0, e1, e2, e3, e4, e5, e6, e7, e8, e9, e10, e11, e12, e13, e14, e15, e16, e17, e18, e19, e20, e21, e22, e23, e24, e25⟩ := idx_facts t
  show V m c main_v5 (((cfg0.win 6).blk t).view.emb (ix2 k s)) = _
  rw [V_v5]
  refine congrArg _ (funext fun a => Fin.ext ?_)
  match a with
  | ⟨0, _⟩ => show win0_6.index t (0 : Fin 2) * 4096 + 1 * k.val = k.val; omega
  | ⟨1, _⟩ => show win0_6.index t (1 : Fin 2) * 256 + 1 * s.val = q.val; omega

/-- Entry s of the output gate's bias row at point t is entry q of its bias. -/
theorem ent_b3 (c : Dev nD) (t : Fin cfg0.N) (s : Fin 256) (q : Fin 2048)
    (hq : q.val = win0_12.index t (1 : Fin 2) * 256 + s.val) :
    iblk m c 10 t (ix2 0 s) = (m ((c : Thread nD τ).loc main_arg11)) (ix1 q) := by
  obtain ⟨e0, e1, e2, e3, e4, e5, e6, e7, e8, e9, e10, e11, e12, e13, e14, e15, e16, e17, e18, e19, e20, e21, e22, e23, e24, e25⟩ := idx_facts t
  show V m c main_v9 (((cfg0.win 10).blk t).view.emb (ix2 0 s)) = _
  refine Eq.trans (congrArg _ (funext fun a => Fin.ext ?_)) (V_v9 m c q)
  match a with
  | ⟨0, _⟩ => show win0_10.index t (0 : Fin 2) * 1 + 1 * 0 = 0; omega
  | ⟨1, _⟩ => show win0_10.index t (1 : Fin 2) * 256 + 1 * s.val = q.val; omega

/-- So the output gate's pre-activation read from the tiles at (r, s) is the specification's at (p, q). -/
theorem gate3 (c : Dev nD) (t : Fin cfg0.N) (r : Fin 512) (s : Fin 256) (p : Fin 8192) (q : Fin 2048)
    (hp : p.val = win0_12.index t (0 : Fin 2) * 512 + r.val) (hq : q.val = win0_12.index t (1 : Fin 2) * 256 + s.val) :
    tileGate (iblk m c 0 t) (iblk m c 1 t) (iblk m c 6 t) (iblk m c 10 t) r s
      = Cell.preAt (m ((c : Thread nD τ).loc main_arg0)) (m ((c : Thread nD τ).loc main_arg1)) (m ((c : Thread nD τ).loc main_arg7)) (m ((c : Thread nD τ).loc main_arg11)) p q :=
  Cell.pre_congr (fun k => row_x m c t r k p hp) (fun k => row_h m c t r k p hp)
    (fun k => col_w3 m c t _ s q hq) (fun k => col_w3 m c t _ s q hq) (ent_b3 m c t s q hq)

/-! ## What a point writes back -/

/-- Point t writes back the tile of the specification's new cell state. -/
theorem flushed_cell (c : Dev nD) (t : Fin cfg0.N) :
    (dats m 0 c).flushed 12 t = ((cfg0.win 12).blk t).view.read (Elt Ideal) (Cell.cellAt (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10))) := by
  rw [Cert.KernelIdeal.Value.flushed12]
  funext y
  obtain ⟨r, s, rfl⟩ : ∃ (r : Fin 512) (s : Fin 256), y = ix2 r s := ⟨y 0, y 1, eq_ix2 y⟩
  obtain ⟨e0, e1, e2, e3, e4, e5, e6, e7, e8, e9, e10, e11, e12, e13, e14, e15, e16, e17, e18, e19, e20, e21, e22, e23, e24, e25⟩ := idx_facts t
  show out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r s) = (Cell.cellAt (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10))) (((cfg0.win 12).blk t).view.emb (ix2 r s))
  have hp : ((((cfg0.win 12).blk t).view.emb (ix2 r s)) 0).val = win0_12.index t (0 : Fin 2) * 512 + r.val := by
    show win0_12.index t (0 : Fin 2) * 512 + 1 * r.val = _; omega
  have hq : ((((cfg0.win 12).blk t).view.emb (ix2 r s)) 1).val = win0_12.index t (1 : Fin 2) * 256 + s.val := by
    show win0_12.index t (1 : Fin 2) * 256 + 1 * s.val = _; omega
  refine (tile_cell (iblk m c 0 t) (iblk m c 1 t) (iblk m c 2 t) (iblk m c 3 t) (iblk m c 4 t) (iblk m c 5 t) (iblk m c 6 t) (iblk m c 7 t) (iblk m c 8 t) (iblk m c 9 t) (iblk m c 10 t) r s).trans ?_
  unfold Cell.cellAt
  rw [gate0 m c t r s _ _ hp hq, gate1 m c t r s _ _ hp hq, gate2 m c t r s _ _ hp hq, tile_c m c t r s _ _ hp hq]
  exact congrArg (fun j => Cell.cellOf ((m ((c : Thread nD τ).loc main_arg2)) j) _ _ _) (eq_ix2 _).symm

/-- Point t writes back the tile of the specification's new hidden state. -/
theorem flushed_hidden (c : Dev nD) (t : Fin cfg0.N) :
    (dats m 0 c).flushed 11 t = ((cfg0.win 11).blk t).view.read (Elt Ideal) (Cell.hiddenAt (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) := by
  rw [Cert.KernelIdeal.Value.flushed11]
  funext y
  obtain ⟨r, s, rfl⟩ : ∃ (r : Fin 512) (s : Fin 256), y = ix2 r s := ⟨y 0, y 1, eq_ix2 y⟩
  obtain ⟨e0, e1, e2, e3, e4, e5, e6, e7, e8, e9, e10, e11, e12, e13, e14, e15, e16, e17, e18, e19, e20, e21, e22, e23, e24, e25⟩ := idx_facts t
  show out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r s) = (Cell.hiddenAt (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (((cfg0.win 11).blk t).view.emb (ix2 r s))
  have hp : ((((cfg0.win 11).blk t).view.emb (ix2 r s)) 0).val = win0_12.index t (0 : Fin 2) * 512 + r.val := by
    show win0_11.index t (0 : Fin 2) * 512 + 1 * r.val = _; omega
  have hq : ((((cfg0.win 11).blk t).view.emb (ix2 r s)) 1).val = win0_12.index t (1 : Fin 2) * 256 + s.val := by
    show win0_11.index t (1 : Fin 2) * 256 + 1 * s.val = _; omega
  refine (tile_hidden (iblk m c 0 t) (iblk m c 1 t) (iblk m c 2 t) (iblk m c 3 t) (iblk m c 4 t) (iblk m c 5 t) (iblk m c 6 t) (iblk m c 7 t) (iblk m c 8 t) (iblk m c 9 t) (iblk m c 10 t) r s).trans ?_
  unfold Cell.hiddenAt Cell.cellAt
  rw [gate0 m c t r s _ _ hp hq, gate1 m c t r s _ _ hp hq, gate2 m c t r s _ _ hp hq, gate3 m c t r s _ _ hp hq,
    tile_c m c t r s _ _ hp hq]
  exact congrArg (fun j => Cell.hiddenOf _ (Cell.cellOf ((m ((c : Thread nD τ).loc main_arg2)) j) _ _ _)) (eq_ix2 _).symm

/-! ## The tiles cover the results -/

/-- An index of the array is in point t's tile of result window 12 iff each coordinate is in the tile's range. -/
theorem mem_blk12 (t : Fin cfg0.N) (i : S8192x2048.Idx) :
    i ∈ ((cfg0.win 12).blk t).view.set ↔ ∀ a : Fin 2, win0_12.index t a * S512x256.size a ≤ (i a).val ∧ (i a).val < win0_12.index t a * S512x256.size a + S512x256.size a := by
  show i ∈ ((View.whole main_v10_1).slice (win0_12.rect t)).set ↔ _
  rw [View.set_slice_whole, Rect.mem_set_unit]
  exact Iff.rfl

/-- The 128 tiles cover the array: index (p, q) is in the tile of the point with row tile p / 512 and column tile q / 256. -/
theorem cover12 (i : S8192x2048.Idx) : ∃ t : Fin cfg0.N, (cfg0.win 12).flush t = true ∧ i ∈ ((cfg0.win 12).blk t).view.set := by
  have hi0 : (i 0).val < 8192 := (i 0).isLt
  have hi1 : (i 1).val < 2048 := (i 1).isLt
  obtain ⟨t, ht⟩ := idx_onto ⟨(i 0).val / 512, by omega⟩ ⟨(i 1).val / 256, by omega⟩
  have q0 : win0_12.index t (0 : Fin 2) = (i 0).val / 512 := congrFun ht 0
  have q1 : win0_12.index t (1 : Fin 2) = (i 1).val / 256 := congrFun ht 1
  obtain ⟨e0, e1, e2, e3, e4, e5, e6, e7, e8, e9, e10, e11, e12, e13, e14, e15, e16, e17, e18, e19, e20, e21, e22, e23, e24, e25⟩ := idx_facts t
  refine ⟨t, flush0_12 t, ?_⟩
  rw [mem_blk12]
  intro a
  match a with
  | ⟨0, _⟩ => show win0_12.index t (0 : Fin 2) * 512 ≤ (i 0).val ∧ (i 0).val < win0_12.index t (0 : Fin 2) * 512 + 512; omega
  | ⟨1, _⟩ => show win0_12.index t (1 : Fin 2) * 256 ≤ (i 1).val ∧ (i 1).val < win0_12.index t (1 : Fin 2) * 256 + 256; omega

/-- An index of the array is in point t's tile of result window 11 iff each coordinate is in the tile's range. -/
theorem mem_blk11 (t : Fin cfg0.N) (i : S8192x2048.Idx) :
    i ∈ ((cfg0.win 11).blk t).view.set ↔ ∀ a : Fin 2, win0_11.index t a * S512x256.size a ≤ (i a).val ∧ (i a).val < win0_11.index t a * S512x256.size a + S512x256.size a := by
  show i ∈ ((View.whole main_v10_0).slice (win0_11.rect t)).set ↔ _
  rw [View.set_slice_whole, Rect.mem_set_unit]
  exact Iff.rfl

/-- The 128 tiles cover the array: index (p, q) is in the tile of the point with row tile p / 512 and column tile q / 256. -/
theorem cover11 (i : S8192x2048.Idx) : ∃ t : Fin cfg0.N, (cfg0.win 11).flush t = true ∧ i ∈ ((cfg0.win 11).blk t).view.set := by
  have hi0 : (i 0).val < 8192 := (i 0).isLt
  have hi1 : (i 1).val < 2048 := (i 1).isLt
  obtain ⟨t, ht⟩ := idx_onto ⟨(i 0).val / 512, by omega⟩ ⟨(i 1).val / 256, by omega⟩
  have q0 : win0_12.index t (0 : Fin 2) = (i 0).val / 512 := congrFun ht 0
  have q1 : win0_12.index t (1 : Fin 2) = (i 1).val / 256 := congrFun ht 1
  obtain ⟨e0, e1, e2, e3, e4, e5, e6, e7, e8, e9, e10, e11, e12, e13, e14, e15, e16, e17, e18, e19, e20, e21, e22, e23, e24, e25⟩ := idx_facts t
  refine ⟨t, flush0_11 t, ?_⟩
  rw [mem_blk11]
  intro a
  match a with
  | ⟨0, _⟩ => show win0_11.index t (0 : Fin 2) * 512 ≤ (i 0).val ∧ (i 0).val < win0_11.index t (0 : Fin 2) * 512 + 512; omega
  | ⟨1, _⟩ => show win0_11.index t (1 : Fin 2) * 256 ≤ (i 1).val ∧ (i 1).val < win0_11.index t (1 : Fin 2) * 256 + 256; omega

/-- After the run the second result holds the specification's new cell state. -/
theorem final_cell (c : Dev nD) : (dats m 0 c).arrAt 12 cfg0.N = (Cell.cellAt (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10))) :=
  (dats m 0 c).arrAt_eq_of_cover 12 _ (fun t _ => flushed_cell m c t) cover12

/-- After the run the first result holds the specification's new hidden state. -/
theorem final_hidden (c : Dev nD) : (dats m 0 c).arrAt 11 cfg0.N = (Cell.hiddenAt (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) :=
  (dats m 0 c).arrAt_eq_of_cover 11 _ (fun t _ => flushed_hidden m c t) cover11

/-- Every weakly fair execution of the kernel ends with the two results at the specification's arrays of the arguments,
    the arguments unchanged. -/
theorem run : θ_run defs (onTc (τ := τ) (main (F := Ideal))) ⟨m, fun _ => 0, ρ⟩ fun r => ∀ c : Dev nD,
      r.2.mem ((c : Thread nD τ).loc main_v10_0) = (Cell.hiddenAt (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)))
      ∧ r.2.mem ((c : Thread nD τ).loc main_v10_1) = (Cell.cellAt (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final_hidden m c), (h c).2.1.trans (final_cell m c), (h c).2.2⟩)
    (Cert.KernelIdeal.Value.run_blocks m ρ)

end Cert.Bridge.KernelCell

end
-- ==== Proof.LibFusedLinear.lean ====
/-
  A linear layer applied to two operands side by side. For row blocks a (R × A) and b (R × B), weights W (K × N) with
  K = A + B, and a bias row, the product of the row-wise concatenation [a | b] with W is the sum of the two partial
  products a · W[0:A, :] + b · W[A:K, :]: the sum over the contracted axis splits at A. On the extended reals this needs
  no finiteness, only that addition is commutative and associative.
-/
import Idealize.ShloMosaic.PureOps.Ideal
import Idealize.ShloMosaic.Lib.ValueIdx
import Idealize.ShloMosaic.Lib.Pipeline.Value
import Idealize.ShloMosaic.PureOps.Ideal.Laws
import proofs.«140452_j28845000360212_2_alg».proof.Proof.LibMatmul

noncomputable section

open scoped BigOperators

namespace Cert.Bridge.LibFusedLinear

open Idealize.ShloMosaic Idealize.ShloMosaic.ValueIdx Idealize.ShloMosaic.Pipeline Cert.Bridge

/-- A sum over `Fin K` with `K = A + B` splits into the first `A` terms and the last `B` terms. -/
theorem sum_split {α : Type} [AddCommMonoid α] {A B K : Nat} (h : A + B = K) (f : Fin K → α) :
    ∑ k : Fin K, f k = ∑ k : Fin A, f ⟨k.val, by omega⟩ + ∑ k : Fin B, f ⟨A + k.val, by omega⟩ := by
  subst h
  rw [Fin.sum_univ_add]
  rfl

variable {R A B K N : Nat}

/-- The fused layer at output index (p, q): a[p, :] · wa[:, q] + b[p, :] · wb[:, q] + bias[0, q]. -/
def linAt (a : (⟨2, ![R, A]⟩ : Shape).Idx → EReal) (b : (⟨2, ![R, B]⟩ : Shape).Idx → EReal)
    (wa : (⟨2, ![A, N]⟩ : Shape).Idx → EReal) (wb : (⟨2, ![B, N]⟩ : Shape).Idx → EReal)
    (bias : (⟨2, ![1, N]⟩ : Shape).Idx → EReal) (p : Fin R) (q : Fin N) : EReal :=
  (∑ k : Fin A, a (ix2 p k) * wa (ix2 k q)) + (∑ k : Fin B, b (ix2 p k) * wb (ix2 k q)) + bias (ix2 0 q)

/-- The contracted sum against the concatenation [a | b] is the sum of the two partial contracted sums, when `wa` and
    `wb` are the top `A` rows and the bottom `B` rows of `W`. -/
theorem concat_sum (h : A + B = K) (cat : (⟨2, ![R, K]⟩ : Shape).Idx → EReal)
    (a : (⟨2, ![R, A]⟩ : Shape).Idx → EReal) (b : (⟨2, ![R, B]⟩ : Shape).Idx → EReal)
    (W : (⟨2, ![K, N]⟩ : Shape).Idx → EReal)
    (wa : (⟨2, ![A, N]⟩ : Shape).Idx → EReal) (wb : (⟨2, ![B, N]⟩ : Shape).Idx → EReal) (p : Fin R) (q : Fin N)
    (hca : ∀ k : Fin A, cat (ix2 p ⟨k.val, by omega⟩) = a (ix2 p k))
    (hcb : ∀ k : Fin B, cat (ix2 p ⟨A + k.val, by omega⟩) = b (ix2 p k))
    (hwa : ∀ k : Fin A, wa (ix2 k q) = W (ix2 ⟨k.val, by omega⟩ q))
    (hwb : ∀ k : Fin B, wb (ix2 k q) = W (ix2 ⟨A + k.val, by omega⟩ q)) :
    ∑ k : Fin K, cat (ix2 p k) * W (ix2 k q)
      = (∑ k : Fin A, a (ix2 p k) * wa (ix2 k q)) + (∑ k : Fin B, b (ix2 p k) * wb (ix2 k q)) := by
  rw [sum_split h]
  refine congrArg₂ (· + ·) (Finset.sum_congr rfl fun k _ => ?_) (Finset.sum_congr rfl fun k _ => ?_)
  · rw [hca k, hwa k]
  · rw [hcb k, hwb k]

/-- The layer as the host computes it, read at (p, q): the product of the concatenation [a | b] with the whole weight
    matrix plus the bias broadcast along the rows, is the fused layer over the weight's top `A` rows and bottom `B` rows
    and the bias as a one-row matrix. -/
theorem concat_dot_bias_at (h : A + B = K)
    (a : FVec Ideal ⟨2, ![R, A]⟩ .f32) (b : FVec Ideal ⟨2, ![R, B]⟩ .f32) (W : FVec Ideal ⟨2, ![K, N]⟩ .f32)
    (bias : FVec Ideal ⟨1, ![N]⟩ .f32)
    (hc : Shape.Concatenates [(⟨2, ![R, A]⟩ : Shape), ⟨2, ![R, B]⟩] ⟨2, ![R, K]⟩ 1)
    (hb1 : (⟨1, ![N]⟩ : Shape).BroadcastsInDim ⟨2, ![1, N]⟩ ![1])
    (hb2 : (⟨2, ![1, N]⟩ : Shape).BroadcastsInDim ⟨2, ![R, N]⟩ ![0, 1])
    (hs0 : (⟨2, ![K, N]⟩ : Shape).Slices ![0, 0] ⟨2, ![A, N]⟩)
    (hs1 : (⟨2, ![K, N]⟩ : Shape).Slices ![A, 0] ⟨2, ![B, N]⟩)
    (hr : (⟨1, ![N]⟩ : Shape).ShapeCasts ⟨2, ![1, N]⟩)
    (prec : Option ContractPrecision) (sched : HostSchedule) (p : Fin R) (q : Fin N) :
    addf (FloatOps.dotGeneral (DotDims.plain R K N) prec sched
            (concatenate ⟨2, ![R, K]⟩ 1 [⟨⟨2, ![R, A]⟩, a⟩, ⟨⟨2, ![R, B]⟩, b⟩] hc) W)
        (broadcastInDim ⟨2, ![R, N]⟩ ![0, 1] hb2 (broadcastInDim ⟨2, ![1, N]⟩ ![1] hb1 bias)) (ix2 p q)
      = linAt a b (extractStridedSlice ⟨2, ![A, N]⟩ ![0, 0] W hs0) (extractStridedSlice ⟨2, ![B, N]⟩ ![A, 0] W hs1)
          (shapeCast ⟨2, ![1, N]⟩ bias hr) p q := by
  have hq : q.val < N := q.isLt
  -- the bias row, broadcast along the rows: first to one row, then to all
  have hk2 : ∀ d : Fin 2, ((ix2 (0 : Fin 1) q : (⟨2, ![1, N]⟩ : Shape).Idx) d).val
      = if (⟨2, ![1, N]⟩ : Shape).size d = 1 then 0 else ((ix2 p q : (⟨2, ![R, N]⟩ : Shape).Idx) ((![0, 1] : Fin 2 → Fin 2) d)).val := by
    intro d
    match d with
    | ⟨0, _⟩ => show (0 : ℕ) = if (1 : ℕ) = 1 then 0 else p.val; rw [if_pos rfl]
    | ⟨1, _⟩ =>
      show q.val = if N = 1 then 0 else q.val
      split
      · omega
      · rfl
  have hk1 : ∀ d : Fin 1, ((ix1 q : (⟨1, ![N]⟩ : Shape).Idx) d).val
      = if (⟨1, ![N]⟩ : Shape).size d = 1 then 0 else ((ix2 (0 : Fin 1) q : (⟨2, ![1, N]⟩ : Shape).Idx) ((![1] : Fin 1 → Fin 2) d)).val := by
    intro d
    match d with
    | ⟨0, _⟩ =>
      show q.val = if N = 1 then 0 else q.val
      split
      · omega
      · rfl
  have hbias : broadcastInDim ⟨2, ![R, N]⟩ ![0, 1] hb2 (broadcastInDim ⟨2, ![1, N]⟩ ![1] hb1 bias) (ix2 p q)
      = shapeCast ⟨2, ![1, N]⟩ bias hr (ix2 0 q) :=
    (broadcastInDim_apply ![0, 1] hb2 _ (ix2 p q) (ix2 0 q) hk2).trans
      ((broadcastInDim_apply ![1] hb1 bias (ix2 0 q) (ix1 q) hk1).trans
        (shapeCast_apply bias hr (ix2 0 q) (ix1 q) (by
          rw [Shape.rowMajor_val_one, Shape.rowMajor_val_two]; show q.val = 0 * N + q.val; omega)).symm)
  rw [addf_apply, LibMatmul.dotGeneral_apply, hbias]
  unfold linAt
  refine congrArg₂ (· + ·) ?_ rfl
  refine concat_sum h _ a b W _ _ p q (fun k => ?_) (fun k => ?_) (fun k => ?_) (fun k => ?_)
  · exact concatenate_pair_apply_left 1 a b hc _ rfl (ix2 p k)
      (fun d => by match d with | ⟨0, _⟩ => rfl | ⟨1, _⟩ => rfl)
  · exact concatenate_pair_apply_right 1 a b hc _ rfl rfl (ix2 p k)
      (fun d hd => by match d with | ⟨0, _⟩ => rfl | ⟨1, _⟩ => exact absurd rfl hd)
      (Nat.add_comm _ _)
  · exact extractStridedSlice_apply ![0, 0] W hs0 (ix2 k q) (ix2 ⟨k.val, by omega⟩ q)
      (fun d => by match d with | ⟨0, _⟩ => exact (Nat.zero_add _).symm | ⟨1, _⟩ => exact (Nat.zero_add _).symm)
  · exact extractStridedSlice_apply ![A, 0] W hs1 (ix2 k q) (ix2 ⟨A + k.val, by omega⟩ q)
      (fun d => by match d with | ⟨0, _⟩ => rfl | ⟨1, _⟩ => exact (Nat.zero_add _).symm)

/-- The same layer followed by the host's clamp at zero (the maximum with a zero broadcast from a scalar). -/
theorem relu_concat_dot_bias_at (h : A + B = K)
    (a : FVec Ideal ⟨2, ![R, A]⟩ .f32) (b : FVec Ideal ⟨2, ![R, B]⟩ .f32) (W : FVec Ideal ⟨2, ![K, N]⟩ .f32)
    (bias : FVec Ideal ⟨1, ![N]⟩ .f32)
    (hc : Shape.Concatenates [(⟨2, ![R, A]⟩ : Shape), ⟨2, ![R, B]⟩] ⟨2, ![R, K]⟩ 1)
    (hb1 : (⟨1, ![N]⟩ : Shape).BroadcastsInDim ⟨2, ![1, N]⟩ ![1])
    (hb2 : (⟨2, ![1, N]⟩ : Shape).BroadcastsInDim ⟨2, ![R, N]⟩ ![0, 1])
    (hs0 : (⟨2, ![K, N]⟩ : Shape).Slices ![0, 0] ⟨2, ![A, N]⟩)
    (hs1 : (⟨2, ![K, N]⟩ : Shape).Slices ![A, 0] ⟨2, ![B, N]⟩)
    (hr : (⟨1, ![N]⟩ : Shape).ShapeCasts ⟨2, ![1, N]⟩)
    (hz : (⟨0, ![]⟩ : Shape).BroadcastsInDim ⟨2, ![R, N]⟩ ![])
    (prec : Option ContractPrecision) (sched : HostSchedule) (p : Fin R) (q : Fin N) :
    maximumf (addf (FloatOps.dotGeneral (DotDims.plain R K N) prec sched
            (concatenate ⟨2, ![R, K]⟩ 1 [⟨⟨2, ![R, A]⟩, a⟩, ⟨⟨2, ![R, B]⟩, b⟩] hc) W)
        (broadcastInDim ⟨2, ![R, N]⟩ ![0, 1] hb2 (broadcastInDim ⟨2, ![1, N]⟩ ![1] hb1 bias)))
      (broadcastInDim ⟨2, ![R, N]⟩ ![] hz (constant (F := Ideal) ⟨0, ![]⟩ .f32 0x00000000#32)) (ix2 p q)
      = max (linAt a b (extractStridedSlice ⟨2, ![A, N]⟩ ![0, 0] W hs0) (extractStridedSlice ⟨2, ![B, N]⟩ ![A, 0] W hs1)
          (shapeCast ⟨2, ![1, N]⟩ bias hr) p q) (Ideal.ofBits .f32 0x00000000#32) := by
  rw [maximumf_apply]
  refine congrArg₂ max (concat_dot_bias_at h a b W bias hc hb1 hb2 hs0 hs1 hr prec sched p q) ?_
  exact broadcastInDim_apply ![] hz _ (ix2 p q) ix0 (fun d => d.elim0)

end Cert.Bridge.LibFusedLinear

end
-- ==== Proof.RefCell.lean ====
/-
  The reference program computes the cell. Read at an index (p, q), its fused product of the joined rows [x | h] with the
  four gates' weights joined side by side, plus the joined biases, then cut back into four column bands, is gate by gate
  the pre-activation of the specification: the contracted sum over 4096 splits at 2048 into the input part and the hidden
  part (addition on the extended reals is commutative and associative, nothing else is used), column g * 2048 + q of the
  joined weights is column q of gate g's weights, and entry g * 2048 + q of the joined bias is entry q of gate g's bias.
  The reference spells the logistic function as 1 / (1 + e^(-z)), which is its definition on the extended reals.
-/
import proofs.«140452_j28845000360212_2_alg».proof.Proof.Gen.ReferenceIdeal.Read
import proofs.«140452_j28845000360212_2_alg».proof.Proof.CellSpec
import proofs.«140452_j28845000360212_2_alg».proof.Proof.LibFusedLinear
import Idealize.ShloMosaic.Lib.IdealHost
import Idealize.ShloMosaic.Lib.Pipeline.Value
import Idealize.ShloMosaic.Lib.ValueIdx

noncomputable section

open scoped BigOperators

namespace Cert.Bridge.RefCell

open Idealize.ShloMosaic Idealize.ShloMosaic.ValueIdx Idealize.ShloMosaic.Pipeline
open Cert.ReferenceIdeal Cert.ReferenceIdeal.Read Cert.Bridge

/-- The joined rows [x | h] at a column below 2048 read x at that column. -/
private theorem rows_left (x0 x1 : (⟨S8192x2048, .f32⟩ : BufTy).Contents (Elt Ideal)) (j : S8192x4096.Idx) (i : S8192x2048.Idx)
    (h0 : (i 0).val = (j 0).val) (h1 : (i 1).val = (j 1).val) :
    val_main_v0 (F := Ideal) x0 x1 j = x0 i := by
  unfold val_main_v0
  exact concatenate_pair_apply_left 1 x0 x1 _ j rfl i
    (fun d => by match d with | ⟨0, _⟩ => exact h0 | ⟨1, _⟩ => exact h1)

/-- The joined rows [x | h] at column 2048 + k read h at column k. -/
private theorem rows_right (x0 x1 : (⟨S8192x2048, .f32⟩ : BufTy).Contents (Elt Ideal)) (j : S8192x4096.Idx) (i : S8192x2048.Idx)
    (h0 : (i 0).val = (j 0).val) (h1 : 2048 + (i 1).val = (j 1).val) :
    val_main_v0 (F := Ideal) x0 x1 j = x1 i := by
  unfold val_main_v0
  exact concatenate_pair_apply_right 1 x0 x1 _ j rfl rfl i
    (fun d hd => by match d with | ⟨0, _⟩ => exact h0 | ⟨1, _⟩ => exact absurd rfl hd)
    ((Nat.add_comm _ _).trans h1)

/-- Column 0 + q of the four gates' weights joined side by side is column q of gate 0's weights. -/
private theorem cols0 (x4 x5 x6 x7 : (⟨S4096x2048, .f32⟩ : BufTy).Contents (Elt Ideal)) (j : S4096x8192.Idx) (i : S4096x2048.Idx)
    (h0 : (i 0).val = (j 0).val) (h1 : 0 + (i 1).val = (j 1).val) :
    val_main_v1 (F := Ideal) x4 x5 x6 x7 j = x4 i := by
  unfold val_main_v1
  exact concatenate_apply_piece 1 _ _ j 0 (by show 0 < 4; omega) S4096x2048 x4 rfl rfl 0 rfl i
    (fun d hd => by match d with | ⟨0, _⟩ => exact h0 | ⟨1, _⟩ => exact absurd rfl hd) h1

/-- Column 2048 + q of the four gates' weights joined side by side is column q of gate 1's weights. -/
private theorem cols1 (x4 x5 x6 x7 : (⟨S4096x2048, .f32⟩ : BufTy).Contents (Elt Ideal)) (j : S4096x8192.Idx) (i : S4096x2048.Idx)
    (h0 : (i 0).val = (j 0).val) (h1 : 2048 + (i 1).val = (j 1).val) :
    val_main_v1 (F := Ideal) x4 x5 x6 x7 j = x5 i := by
  unfold val_main_v1
  exact concatenate_apply_piece 1 _ _ j 1 (by show 1 < 4; omega) S4096x2048 x5 rfl rfl 2048 rfl i
    (fun d hd => by match d with | ⟨0, _⟩ => exact h0 | ⟨1, _⟩ => exact absurd rfl hd) h1

/-- Column 4096 + q of the four gates' weights joined side by side is column q of gate 2's weights. -/
private theorem cols2 (x4 x5 x6 x7 : (⟨S4096x2048, .f32⟩ : BufTy).Contents (Elt Ideal)) (j : S4096x8192.Idx) (i : S4096x2048.Idx)
    (h0 : (i 0).val = (j 0).val) (h1 : 4096 + (i 1).val = (j 1).val) :
    val_main_v1 (F := Ideal) x4 x5 x6 x7 j = x6 i := by
  unfold val_main_v1
  exact concatenate_apply_piece 1 _ _ j 2 (by show 2 < 4; omega) S4096x2048 x6 rfl rfl 4096 rfl i
    (fun d hd => by match d with | ⟨0, _⟩ => exact h0 | ⟨1, _⟩ => exact absurd rfl hd) h1

/-- Column 6144 + q of the four gates' weights joined side by side is column q of gate 3's weights. -/
private theorem cols3 (x4 x5 x6 x7 : (⟨S4096x2048, .f32⟩ : BufTy).Contents (Elt Ideal)) (j : S4096x8192.Idx) (i : S4096x2048.Idx)
    (h0 : (i 0).val = (j 0).val) (h1 : 6144 + (i 1).val = (j 1).val) :
    val_main_v1 (F := Ideal) x4 x5 x6 x7 j = x7 i := by
  unfold val_main_v1
  exact concatenate_apply_piece 1 _ _ j 3 (by show 3 < 4; omega) S4096x2048 x7 rfl rfl 6144 rfl i
    (fun d hd => by match d with | ⟨0, _⟩ => exact h0 | ⟨1, _⟩ => exact absurd rfl hd) h1

/-- Entry 0 + q of the four gates' biases joined end to end is entry q of gate 0's bias. -/
private theorem bias0 (x8 x9 x10 x11 : (⟨S2048, .f32⟩ : BufTy).Contents (Elt Ideal)) (j : S8192.Idx) (i : S2048.Idx)
    (h0 : 0 + (i 0).val = (j 0).val) :
    val_main_v2 (F := Ideal) x8 x9 x10 x11 j = x8 i := by
  unfold val_main_v2
  exact concatenate_apply_piece 0 _ _ j 0 (by show 0 < 4; omega) S2048 x8 rfl rfl 0 rfl i
    (fun d hd => by match d with | ⟨0, _⟩ => exact absurd rfl hd) h0

/-- Entry 2048 + q of the four gates' biases joined end to end is entry q of gate 1's bias. -/
private theorem bias1 (x8 x9 x10 x11 : (⟨S2048, .f32⟩ : BufTy).Contents (Elt Ideal)) (j : S8192.Idx) (i : S2048.Idx)
    (h0 : 2048 + (i 0).val = (j 0).val) :
    val_main_v2 (F := Ideal) x8 x9 x10 x11 j = x9 i := by
  unfold val_main_v2
  exact concatenate_apply_piece 0 _ _ j 1 (by show 1 < 4; omega) S2048 x9 rfl rfl 2048 rfl i
    (fun d hd => by match d with | ⟨0, _⟩ => exact absurd rfl hd) h0

/-- Entry 4096 + q of the four gates' biases joined end to end is entry q of gate 2's bias. -/
private theorem bias2 (x8 x9 x10 x11 : (⟨S2048, .f32⟩ : BufTy).Contents (Elt Ideal)) (j : S8192.Idx) (i : S2048.Idx)
    (h0 : 4096 + (i 0).val = (j 0).val) :
    val_main_v2 (F := Ideal) x8 x9 x10 x11 j = x10 i := by
  unfold val_main_v2
  exact concatenate_apply_piece 0 _ _ j 2 (by show 2 < 4; omega) S2048 x10 rfl rfl 4096 rfl i
    (fun d hd => by match d with | ⟨0, _⟩ => exact absurd rfl hd) h0

/-- Entry 6144 + q of the four gates' biases joined end to end is entry q of gate 3's bias. -/
private theorem bias3 (x8 x9 x10 x11 : (⟨S2048, .f32⟩ : BufTy).Contents (Elt Ideal)) (j : S8192.Idx) (i : S2048.Idx)
    (h0 : 6144 + (i 0).val = (j 0).val) :
    val_main_v2 (F := Ideal) x8 x9 x10 x11 j = x11 i := by
  unfold val_main_v2
  exact concatenate_apply_piece 0 _ _ j 3 (by show 3 < 4; omega) S2048 x11 rfl rfl 6144 rfl i
    (fun d hd => by match d with | ⟨0, _⟩ => exact absurd rfl hd) h0

/-- The fused product plus bias at row p and column off + q is the pre-activation of the gate whose weights sit at
    columns off .. off + 2048 of the joined weights and whose bias sits at entries off .. off + 2048 of the joined bias:
    the contracted sum over 4096 splits at 2048 into the input part and the hidden part. -/
private theorem pre_band (x0 x1 : (⟨S8192x2048, .f32⟩ : BufTy).Contents (Elt Ideal)) (x4 x5 x6 x7 : (⟨S4096x2048, .f32⟩ : BufTy).Contents (Elt Ideal)) (x8 x9 x10 x11 : (⟨S2048, .f32⟩ : BufTy).Contents (Elt Ideal))
    (W : (⟨S4096x2048, .f32⟩ : BufTy).Contents (Elt Ideal)) (b : (⟨S2048, .f32⟩ : BufTy).Contents (Elt Ideal)) (off : Nat)
    (hW : ∀ (j : S4096x8192.Idx) (i : S4096x2048.Idx), (i 0).val = (j 0).val → off + (i 1).val = (j 1).val →
      val_main_v1 (F := Ideal) x4 x5 x6 x7 j = W i)
    (hb : ∀ (j : S8192.Idx) (i : S2048.Idx), off + (i 0).val = (j 0).val → val_main_v2 (F := Ideal) x8 x9 x10 x11 j = b i)
    (p : Fin 8192) (q : Fin 2048) (J : S8192x8192.Idx) (hJ0 : (J 0).val = p.val) (hJ1 : (J 1).val = off + q.val) :
    val_main_v6 (F := Ideal) x0 x1 x4 x5 x6 x7 x8 x9 x10 x11 J = Cell.preAt x0 x1 W b p q := by
  rw [val_main_v6_apply, val_main_v3_apply, val_main_v5_apply, val_main_v4_apply]
  show (∑ k : Fin 4096, _) + _ = _
  unfold Cell.preAt Cell.pre
  refine congrArg₂ (· + ·) ?_ (hb _ (ix1 q) hJ1.symm)
  rw [LibFusedLinear.sum_split (A := 2048) (B := 2048) (K := 4096) rfl]
  refine congrArg₂ (· + ·) (Finset.sum_congr rfl fun k _ => ?_) (Finset.sum_congr rfl fun k _ => ?_)
  · exact congrArg₂ (· * ·) (rows_left x0 x1 _ (ix2 p k) hJ0.symm rfl)
      (hW _ (ix2 (⟨k.val, by have := k.isLt; omega⟩ : Fin 4096) q) rfl hJ1.symm)
  · exact congrArg₂ (· * ·) (rows_right x0 x1 _ (ix2 p k) hJ0.symm rfl)
      (hW _ (ix2 (⟨2048 + k.val, by have := k.isLt; omega⟩ : Fin 4096) q) rfl hJ1.symm)

/-- Column band 0 of the fused product plus bias is gate 0's pre-activation. -/
private theorem band0 (x0 x1 : (⟨S8192x2048, .f32⟩ : BufTy).Contents (Elt Ideal)) (x4 x5 x6 x7 : (⟨S4096x2048, .f32⟩ : BufTy).Contents (Elt Ideal)) (x8 x9 x10 x11 : (⟨S2048, .f32⟩ : BufTy).Contents (Elt Ideal)) (p : Fin 8192) (q : Fin 2048) :
    val_main_v7 (F := Ideal) x0 x1 x4 x5 x6 x7 x8 x9 x10 x11 (ix2 p q) = Cell.preAt x0 x1 x4 x8 p q := by
  rw [val_main_v7_apply]
  exact pre_band x0 x1 x4 x5 x6 x7 x8 x9 x10 x11 x4 x8 0 (cols0 x4 x5 x6 x7) (bias0 x8 x9 x10 x11) p q _ rfl (Nat.zero_add _).symm

/-- Column band 1 of the fused product plus bias is gate 1's pre-activation. -/
private theorem band1 (x0 x1 : (⟨S8192x2048, .f32⟩ : BufTy).Contents (Elt Ideal)) (x4 x5 x6 x7 : (⟨S4096x2048, .f32⟩ : BufTy).Contents (Elt Ideal)) (x8 x9 x10 x11 : (⟨S2048, .f32⟩ : BufTy).Contents (Elt Ideal)) (p : Fin 8192) (q : Fin 2048) :
    val_main_v8 (F := Ideal) x0 x1 x4 x5 x6 x7 x8 x9 x10 x11 (ix2 p q) = Cell.preAt x0 x1 x5 x9 p q := by
  rw [val_main_v8_apply]
  exact pre_band x0 x1 x4 x5 x6 x7 x8 x9 x10 x11 x5 x9 2048 (cols1 x4 x5 x6 x7) (bias1 x8 x9 x10 x11) p q _ rfl rfl

/-- Column band 2 of the fused product plus bias is gate 2's pre-activation. -/
private theorem band2 (x0 x1 : (⟨S8192x2048, .f32⟩ : BufTy).Contents (Elt Ideal)) (x4 x5 x6 x7 : (⟨S4096x2048, .f32⟩ : BufTy).Contents (Elt Ideal)) (x8 x9 x10 x11 : (⟨S2048, .f32⟩ : BufTy).Contents (Elt Ideal)) (p : Fin 8192) (q : Fin 2048) :
    val_main_v9 (F := Ideal) x0 x1 x4 x5 x6 x7 x8 x9 x10 x11 (ix2 p q) = Cell.preAt x0 x1 x6 x10 p q := by
  rw [val_main_v9_apply]
  exact pre_band x0 x1 x4 x5 x6 x7 x8 x9 x10 x11 x6 x10 4096 (cols2 x4 x5 x6 x7) (bias2 x8 x9 x10 x11) p q _ rfl rfl

/-- Column band 3 of the fused product plus bias is gate 3's pre-activation. -/
private theorem band3 (x0 x1 : (⟨S8192x2048, .f32⟩ : BufTy).Contents (Elt Ideal)) (x4 x5 x6 x7 : (⟨S4096x2048, .f32⟩ : BufTy).Contents (Elt Ideal)) (x8 x9 x10 x11 : (⟨S2048, .f32⟩ : BufTy).Contents (Elt Ideal)) (p : Fin 8192) (q : Fin 2048) :
    val_main_v10 (F := Ideal) x0 x1 x4 x5 x6 x7 x8 x9 x10 x11 (ix2 p q) = Cell.preAt x0 x1 x7 x11 p q := by
  rw [val_main_v10_apply]
  exact pre_band x0 x1 x4 x5 x6 x7 x8 x9 x10 x11 x7 x11 6144 (cols3 x4 x5 x6 x7) (bias3 x8 x9 x10 x11) p q _ rfl rfl

/-- The reference's literal one. -/
private theorem lit_one : FloatOps.ofBits (F := Ideal) .f32 0x3F800000#32 = (1 : EReal) := Ideal.ofBits_one_f32

/-- The reference's spelling of the logistic function is the logistic function. -/
private theorem logistic_spelt (z : EReal) :
    FloatOps.hostDivf (F := Ideal) (φ := .f32) (1 : EReal)
      (FloatOps.addf (F := Ideal) (φ := .f32) (1 : EReal) (FloatOps.hostUnary (F := Ideal) (φ := .f32) .exp (FloatOps.hostNegf (F := Ideal) (φ := .f32) z)))
      = Ideal.logistic z := rfl

/-- The reference's new cell state at an index. -/
private theorem cell_at (x0 x1 x2 : (⟨S8192x2048, .f32⟩ : BufTy).Contents (Elt Ideal)) (x4 x5 x6 x7 : (⟨S4096x2048, .f32⟩ : BufTy).Contents (Elt Ideal)) (x8 x9 x10 x11 : (⟨S2048, .f32⟩ : BufTy).Contents (Elt Ideal)) (p : Fin 8192) (q : Fin 2048) :
    val_main_v26 (F := Ideal) x0 x1 x2 x4 x5 x6 x7 x8 x9 x10 x11 (ix2 p q)
      = Cell.cellOf (x2 (ix2 p q)) (Cell.preAt x0 x1 x4 x8 p q) (Cell.preAt x0 x1 x5 x9 p q) (Cell.preAt x0 x1 x6 x10 p q) := by
  rw [val_main_v26_apply, val_main_v24_apply, val_main_v25_apply, val_main_v16_apply, val_main_v22_apply, val_main_v23_apply,
    val_main_v15_apply, val_main_v21_apply, val_main_v14_apply, val_main_v20_apply, val_main_v13_apply, val_main_v19_apply,
    val_main_v12_apply, val_main_v18_apply, val_main_v11_apply, val_main_v17_apply,
    val_main_cst_apply, val_main_cst_0_apply, val_main_cst_1_apply, val_main_cst_2_apply, band0, band1, band2, lit_one,
    logistic_spelt, logistic_spelt]
  rfl

/-- The reference's new cell state is the specification's, as whole arrays. -/
theorem ref_cell (x0 x1 x2 : (⟨S8192x2048, .f32⟩ : BufTy).Contents (Elt Ideal))
    (x4 x5 x6 x7 : (⟨S4096x2048, .f32⟩ : BufTy).Contents (Elt Ideal))
    (x8 x9 x10 x11 : (⟨S2048, .f32⟩ : BufTy).Contents (Elt Ideal)) :
    val_main_v26 (F := Ideal) x0 x1 x2 x4 x5 x6 x7 x8 x9 x10 x11 = Cell.cellAt x0 x1 x2 x4 x5 x6 x8 x9 x10 := by
  funext j
  obtain ⟨p, q, rfl⟩ : ∃ (p : Fin 8192) (q : Fin 2048), j = ix2 p q := ⟨j 0, j 1, eq_ix2 j⟩
  rw [cell_at]
  rfl

/-- The reference's new hidden state is the specification's, as whole arrays. -/
theorem ref_hidden (x0 x1 x2 : (⟨S8192x2048, .f32⟩ : BufTy).Contents (Elt Ideal))
    (x4 x5 x6 x7 : (⟨S4096x2048, .f32⟩ : BufTy).Contents (Elt Ideal))
    (x8 x9 x10 x11 : (⟨S2048, .f32⟩ : BufTy).Contents (Elt Ideal)) :
    val_main_v34 (F := Ideal) x0 x1 x2 x4 x5 x6 x7 x8 x9 x10 x11 = Cell.hiddenAt x0 x1 x2 x4 x5 x6 x7 x8 x9 x10 x11 := by
  funext j
  obtain ⟨p, q, rfl⟩ : ∃ (p : Fin 8192) (q : Fin 2048), j = ix2 p q := ⟨j 0, j 1, eq_ix2 j⟩
  rw [val_main_v34_apply, val_main_v32_apply, val_main_v33_apply, val_main_v31_apply, val_main_v30_apply, val_main_v29_apply,
    val_main_v28_apply, val_main_v27_apply, val_main_cst_3_apply, val_main_cst_4_apply, band3, lit_one, logistic_spelt, cell_at]
  rfl

end Cert.Bridge.RefCell

end
-- ==== Proof.lean ====
/-
  A long short-term memory cell, tiled, against the same cell written with one fused product.

  Both programs take an input x and a previous hidden state h (8192 x 2048 each), a previous cell state c, four gates'
  weights (4096 x 2048 each: the first 2048 rows multiply x, the last 2048 multiply h) and four biases, and return the new
  hidden state and the new cell state. With  pre_g[p, q] = x[p, :] . W_g[0:2048, q] + h[p, :] . W_g[2048:4096, q] + b_g[q]
  for the forget, input, candidate and output gates,
      c'[p, q] = c[p, q] * sigma(pre_f) + sigma(pre_i) * tanh(pre_c),     h'[p, q] = sigma(pre_o) * tanh(c'[p, q]).
  The kernel computes 512 x 256 tiles of the two results on an 8 x 16 grid, each gate as two products into a zero
  accumulator (the x part and the h part) plus the bias row; the reference joins x and h side by side, joins the four
  weights side by side and the four biases end to end, forms one 8192 x 4096 by 4096 x 8192 product, adds the bias and
  cuts the result into four bands, and spells sigma as 1 / (1 + e^(-z)).

  On the extended reals a change of float format is the identity, a product into a zero accumulator and the host's
  product are the same finite sum, sigma IS 1 / (1 + e^(-z)), and the hyperbolic tangent is one function on both sides.
  What joins the two sides is that the contracted sum over 4096 splits at 2048 and that a joined array read at an index
  is one of its pieces: only commutativity and associativity of addition, so the inputs' finiteness is never used.

  CellSpec states the cell index by index; TileCell reads the kernel body's arithmetic at a tile position; KernelCell
  carries the tiles to whole arrays over the kernel's run; RefCell reads the reference's run at an index. Below, the two
  runs are set side by side.
-/
import proofs.«140452_j28845000360212_2_alg».proof.Defs
import proofs.«140452_j28845000360212_2_alg».proof.Proof.Gen.Kernel
import proofs.«140452_j28845000360212_2_alg».proof.Proof.Gen.Kernel.Skeleton
import proofs.«140452_j28845000360212_2_alg».proof.Proof.Gen.Kernel.Launch
import proofs.«140452_j28845000360212_2_alg».proof.Proof.Gen.Kernel.Points
import proofs.«140452_j28845000360212_2_alg».proof.Proof.Gen.Kernel.Frame
import proofs.«140452_j28845000360212_2_alg».proof.Proof.Gen.KernelIdeal
import proofs.«140452_j28845000360212_2_alg».proof.Proof.Gen.KernelIdeal.Skeleton
import proofs.«140452_j28845000360212_2_alg».proof.Proof.Gen.KernelIdeal.Launch
import proofs.«140452_j28845000360212_2_alg».proof.Proof.Gen.KernelIdeal.Points
import proofs.«140452_j28845000360212_2_alg».proof.Proof.Gen.KernelIdeal.Frame
import proofs.«140452_j28845000360212_2_alg».proof.Proof.Gen.ReferenceIdeal
import proofs.«140452_j28845000360212_2_alg».proof.Proof.Gen.KernelIdeal.Value
import proofs.«140452_j28845000360212_2_alg».proof.Proof.Gen.ReferenceIdeal.Run
import proofs.«140452_j28845000360212_2_alg».proof.Proof.Gen.ReferenceIdeal.Read
import proofs.«140452_j28845000360212_2_alg».proof.Proof.Gen.Pre_finite_inputs
import proofs.«140452_j28845000360212_2_alg».proof.Proof.KernelCell
import proofs.«140452_j28845000360212_2_alg».proof.Proof.RefCell
import Idealize.ShloMosaic.Adequacy
import Idealize.ShloMosaic.Init

noncomputable section

namespace Cert.Proof

open Idealize.ShloMosaic Idealize.SL.Sem Cert.Kernel

/-- The kernel as printed runs and leaves its arguments alone. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments alone: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Nothing was rewritten to read the kernel on the extended reals. -/
theorem preserves : Cert.preserves_Kernel_KernelIdeal := trivial

/-- From arguments that agree, the kernel ends with the specification's new hidden and cell states of its arguments, and
    the reference with the same two arrays of its own. -/
theorem algebraic : Cert.algebraic_KernelIdeal_ReferenceIdeal := by
  intro m ρ m' ρ' _ hagree
  refine ⟨_, _, Cert.Bridge.KernelCell.run m ρ, ?_⟩
  refine (θ_run Cert.ReferenceIdeal.defs _ _).mono (fun _ h c => ⟨?_, ?_, (h c).2.2⟩)
    (Cert.ReferenceIdeal.Value.run (F := Ideal) m' ρ')
  · obtain ⟨a0, a1, a2, a3, a4, a5, a6, a7, a8, a9, a10, a11⟩ := hagree c
    rw [(h c).1, Cert.ReferenceIdeal.Read.val_main_v34_eq, Cert.Bridge.RefCell.ref_hidden,
      a0, a1, a2, a4, a5, a6, a7, a8, a9, a10, a11]
  · obtain ⟨a0, a1, a2, a3, a4, a5, a6, a7, a8, a9, a10, a11⟩ := hagree c
    refine (h c).2.1.trans ?_
    rw [Cert.ReferenceIdeal.Read.val_main_v26_eq, Cert.Bridge.RefCell.ref_cell, a0, a1, a2, a4, a5, a6, a8, a9, a10]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
